-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384x4096 : Shape := ⟨3, ![1, 16384, 4096]⟩
abbrev S4096x1x4 : Shape := ⟨3, ![4096, 1, 4]⟩
abbrev S4096 : Shape := ⟨1, ![4096]⟩
abbrev S8x4x4096 : Shape := ⟨3, ![8, 4, 4096]⟩
abbrev S8 : Shape := ⟨1, ![8]⟩
abbrev S_ : Shape := ⟨0, ![]⟩

class Facts : Prop where
  bcast_S_S1x16384x4096 : S_.BroadcastsInDim S1x16384x4096 (![] : Fin 0 → Fin S1x16384x4096.rank)
  reducesTo_S1x16384x4096_S_d0_1_2 : S1x16384x4096.ReducesTo [0, 1, 2] S_
  h_S_ : 0 < S_.numel
  bcast_S_S4096x1x4 : S_.BroadcastsInDim S4096x1x4 (![] : Fin 0 → Fin S4096x1x4.rank)
  reducesTo_S4096x1x4_S_d0_1_2 : S4096x1x4.ReducesTo [0, 1, 2] S_
  bcast_S_S4096 : S_.BroadcastsInDim S4096 (![] : Fin 0 → Fin S4096.rank)
  reducesTo_S4096_S_d0 : S4096.ReducesTo [0] S_
  bcast_S_S8x4x4096 : S_.BroadcastsInDim S8x4x4096 (![] : Fin 0 → Fin S8x4x4096.rank)
  reducesTo_S8x4x4096_S_d0_1_2 : S8x4x4096.ReducesTo [0, 1, 2] S_

variable [Facts]

def fn_part1 {F : FTy → Type} [FloatOps F] (main_v13 : IVec S_ 1) (main_v16 : IVec S8x4x4096 1) : IVec S_ 1 :=
  let main_c_5 : IVec S_ 1 := constantI S_ 1 1#1
  let main_v17 : IVec S_ 1 := (fun x v => Host.reduce IntOp.andi x v reducesTo_S8x4x4096_S_d0_1_2 h_S_) main_v16 main_c_5
  let main_v18 : IVec S_ 1 := andi main_v13 main_v17
  main_v18

def fn {F : FTy → Type} [FloatOps F] (main_arg0 : FVec F S1x16384x4096 .f32) (main_arg1 : FVec F S4096x1x4 .f32) (main_arg2 : FVec F S4096 .f32) (main_arg3 : FVec F S8x4x4096 .f32) (main_arg4 : IVec S8 32) (main_arg5 : IVec S8 1) : IVec S_ 1 :=
  let main_v0 : FVec F S1x16384x4096 .f32 := Host.absf main_arg0
  let main_cst : FVec F S_ .f32 := constant S_ .f32 0x7F800000#32
  let main_v1 : FVec F S1x16384x4096 .f32 := broadcastInDim S1x16384x4096 ![] bcast_S_S1x16384x4096 main_cst
  let main_v2 : IVec S1x16384x4096 1 := cmpf .olt main_v0 main_v1
  let main_c : IVec S_ 1 := constantI S_ 1 1#1
  let main_v3 : IVec S_ 1 := (fun x v => Host.reduce IntOp.andi x v reducesTo_S1x16384x4096_S_d0_1_2 h_S_) main_v2 main_c
  let main_v4 : FVec F S4096x1x4 .f32 := Host.absf main_arg1
  let main_cst_0 : FVec F S_ .f32 := constant S_ .f32 0x7F800000#32
  let main_v5 : FVec F S4096x1x4 .f32 := broadcastInDim S4096x1x4 ![] bcast_S_S4096x1x4 main_cst_0
  let main_v6 : IVec S4096x1x4 1 := cmpf .olt main_v4 main_v5
  let main_c_1 : IVec S_ 1 := constantI S_ 1 1#1
  let main_v7 : IVec S_ 1 := (fun x v => Host.reduce IntOp.andi x v reducesTo_S4096x1x4_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4x4096 .f32 := Host.absf main_arg3
  let main_cst_4 : FVec F S_ .f32 := constant S_ .f32 0x7F800000#32
  let main_v15 : FVec F S8x4x4096 .f32 := broadcastInDim S8x4x4096 ![] bcast_S_S8x4x4096 main_cst_4
  let main_v16 : IVec S8x4x4096 1 := cmpf .olt main_v14 main_v15
  fn_part1 (F := F) main_v13 main_v16
-- ==== Kernel.lean ====
abbrev S1x16384x4096 : Shape := ⟨3, ![1, 16384, 4096]⟩
abbrev S4096x1x4 : Shape := ⟨3, ![4096, 1, 4]⟩
abbrev S4096 : Shape := ⟨1, ![4096]⟩
abbrev S8x4x4096 : Shape := ⟨3, ![8, 4, 4096]⟩
abbrev S8 : Shape := ⟨1, ![8]⟩
abbrev S8x2048x4096 : Shape := ⟨3, ![8, 2048, 4096]⟩
abbrev S_ : Shape := ⟨0, ![]⟩
abbrev S8x1 : Shape := ⟨2, ![8, 1]⟩
abbrev S8x3x4096 : Shape := ⟨3, ![8, 3, 4096]⟩
abbrev S8x1x1 : Shape := ⟨3, ![8, 1, 1]⟩
abbrev S4096x4 : Shape := ⟨2, ![4096, 4]⟩
abbrev S4x4096 : Shape := ⟨2, ![4, 4096]⟩
abbrev S1x4096 : Shape := ⟨2, ![1, 4096]⟩
abbrev S1x2048x512 : Shape := ⟨3, ![1, 2048, 512]⟩
abbrev S1x3x512 : Shape := ⟨3, ![1, 3, 512]⟩
abbrev S4x512 : Shape := ⟨2, ![4, 512]⟩
abbrev S1x512 : Shape := ⟨2, ![1, 512]⟩
abbrev S1x4x512 : Shape := ⟨3, ![1, 4, 512]⟩
abbrev S2048x512 : Shape := ⟨2, ![2048, 512]⟩
abbrev S3x512 : Shape := ⟨2, ![3, 512]⟩
abbrev S2051x512 : Shape := ⟨2, ![2051, 512]⟩
abbrev S512 : Shape := ⟨1, ![512]⟩

abbrev nBuf : Space → Nat
  | .hbm => 37
  | .vmem => 12
  | .smem => 0
  | _ => 0

abbrev bufTy : (tb : Table) → Fin (tcTables nBuf tb) → BufTy
  | .hbm, ⟨0, _⟩ => ⟨S1x16384x4096, .f32⟩
  | .hbm, ⟨1, _⟩ => ⟨S4096x1x4, .f32⟩
  | .hbm, ⟨2, _⟩ => ⟨S4096, .f32⟩
  | .hbm, ⟨3, _⟩ => ⟨S8x4x4096, .f32⟩
  | .hbm, ⟨4, _⟩ => ⟨S8, .i32⟩
  | .hbm, ⟨5, _⟩ => ⟨S8, .i1⟩
  | .hbm, ⟨6, _⟩ => ⟨S8x2048x4096, .f32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8, .i32⟩
  | .hbm, ⟨14, _⟩ => ⟨S8x1, .i32⟩
  | .hbm, ⟨15, _⟩ => ⟨S8x4x4096, .f32⟩
  | .hbm, ⟨16, _⟩ => ⟨S8x3x4096, .f32⟩
  | .hbm, ⟨17, _⟩ => ⟨S8x1x1, .i1⟩
  | .hbm, ⟨18, _⟩ => ⟨S_, .f32⟩
  | .hbm, ⟨19, _⟩ => ⟨S8x3x4096, .f32⟩
  | .hbm, ⟨20, _⟩ => ⟨S8x3x4096, .i1⟩
  | .hbm, ⟨21, _⟩ => ⟨S8x3x4096, .f32⟩
  | .hbm, ⟨22, _⟩ => ⟨S4096x4, .f32⟩
  | .hbm, ⟨23, _⟩ => ⟨S4x4096, .f32⟩
  | .hbm, ⟨24, _⟩ => ⟨S1x4096, .f32⟩
  | .hbm, ⟨25, _⟩ => ⟨S8x2048x4096, .f32⟩
  | .hbm, ⟨26, _⟩ => ⟨S8x4x4096, .f32⟩
  | .hbm, ⟨27, _⟩ => ⟨S1x16384x4096, .f32⟩
  | .hbm, ⟨28, _⟩ => ⟨S_, .i32⟩
  | .hbm, ⟨29, _⟩ => ⟨S8, .i32⟩
  | .hbm, ⟨30, _⟩ => ⟨S8, .i1⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S8, .i32⟩
  | .hbm, ⟨35, _⟩ => ⟨S8x1, .i32⟩
  | .hbm, ⟨36, _⟩ => ⟨S8x4x4096, .f32⟩
  | .local _ .vmem, ⟨0, _⟩ => ⟨S1x2048x512, .f32⟩
  | .local _ .vmem, ⟨1, _⟩ => ⟨S1x2048x512, .f32⟩
  | .local _ .vmem, ⟨2, _⟩ => ⟨S1x3x512, .f32⟩
  | .local _ .vmem, ⟨3, _⟩ => ⟨S1x3x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S1x2048x512, .f32⟩
  | .local _ .vmem, ⟨9, _⟩ => ⟨S1x2048x512, .f32⟩
  | .local _ .vmem, ⟨10, _⟩ => ⟨S1x4x512, .f32⟩
  | .local _ .vmem, ⟨11, _⟩ => ⟨S1x4x512, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S1x16384x4096_S8x2048x4096 : S1x16384x4096.ShapeCasts S8x2048x4096
  bcast_S_S8 : S_.BroadcastsInDim S8 (![] : Fin 0 → Fin S8.rank)
  bcast_S8_S8x1_0 : S8.BroadcastsInDim S8x1 (![0] : Fin 1 → Fin S8x1.rank)
  slices_S8x4x4096_S8x3x4096_0_1_0 : S8x4x4096.Slices ![0, 1, 0] S8x3x4096
  bcast_S8_S8x1x1_0 : S8.BroadcastsInDim S8x1x1 (![0] : Fin 1 → Fin S8x1x1.rank)
  bcast_S_S8x3x4096 : S_.BroadcastsInDim S8x3x4096 (![] : Fin 0 → Fin S8x3x4096.rank)
  bcast_S8x1x1_S8x3x4096_0_1_2 : S8x1x1.BroadcastsInDim S8x3x4096 (![0, 1, 2] : Fin 3 → Fin S8x3x4096.rank)
  shapeCasts_S4096x1x4_S4096x4 : S4096x1x4.ShapeCasts S4096x4
  transposes_S4096x4_S4x4096_1_0 : S4096x4.Transposes [1, 0] S4x4096
  shapeCasts_S4096_S1x4096 : S4096.ShapeCasts S1x4096
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  concatenates_S3x512_S2048x512_S2051x512_d0 : Shape.Concatenates [S3x512, S2048x512] S2051x512 0
  inb_S1x512_S1x512_0_0 : ∀ a, (![0, 0] : Fin 2 → Nat) a + S1x512.size a ≤ S1x512.size a
  h_S1x512 : 0 < S1x512.numel
  shapeCasts_S1x512_S512 : S1x512.ShapeCasts S512
  shapeCasts_S512_S1x512 : S512.ShapeCasts S1x512
  shapeCasts_S1x512_S1x512 : S1x512.ShapeCasts S1x512
  broadcasts_S1x512_S2048x512 : S1x512.Broadcasts S2048x512
  inb_S4x512_S1x512_0_0 : ∀ a, (![0, 0] : Fin 2 → Nat) a + S1x512.size a ≤ S4x512.size a
  slices_S2051x512_o0_0_S2048x512 : S2051x512.Slices ![0, 0] S2048x512
  inb_S4x512_S1x512_1_0 : ∀ a, (![1, 0] : Fin 2 → Nat) a + S1x512.size a ≤ S4x512.size a
  slices_S2051x512_o1_0_S2048x512 : S2051x512.Slices ![1, 0] S2048x512
  inb_S4x512_S1x512_2_0 : ∀ a, (![2, 0] : Fin 2 → Nat) a + S1x512.size a ≤ S4x512.size a
  slices_S2051x512_o2_0_S2048x512 : S2051x512.Slices ![2, 0] S2048x512
  inb_S4x512_S1x512_3_0 : ∀ a, (![3, 0] : Fin 2 → Nat) a + S1x512.size a ≤ S4x512.size a
  slices_S2051x512_o3_0_S2048x512 : S2051x512.Slices ![3, 0] S2048x512
  shapeCasts_S2048x512_S1x2048x512 : S2048x512.ShapeCasts S1x2048x512
  slices_S2051x512_o2047_0_S4x512 : S2051x512.Slices ![2047, 0] S4x512
  inb_S1x4x512_S1x4x512_0_0_0 : ∀ a, (![0, 0, 0] : Fin 3 → Nat) a + S1x4x512.size a ≤ S1x4x512.size a
  h_S1x4x512 : 0 < S1x4x512.numel
  shapeCasts_S1x4x512_S4x512 : S1x4x512.ShapeCasts S4x512
  shapeCasts_S4x512_S1x4x512 : S4x512.ShapeCasts S1x4x512
  shapeCasts_S8x2048x4096_S1x16384x4096 : S8x2048x4096.ShapeCasts S1x16384x4096
  gather_S8x4x4096_S8x1_S8x4x4096_12_0_n_n_0_1_144096_wf : GatherDims.WF S8x4x4096 S8x1 S8x4x4096 [1, 2] [0] [] [0] [] 1 ![1, 4, 4096]
  scatter_S8x4x4096_S8x1_S8x4x4096_12_0_0_1_wf : ScatterDims.WF S8x4x4096 S8x1 S8x4x4096 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x4096.size a
  hwx0_0 : ∀ i : grid0.Coords, EltTy.bits .f32 = 32 ∨ (Rect.block (s := S8x2048x4096) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S8x3x4096.size a
  hwx0_1 : ∀ i : grid0.Coords, EltTy.bits .f32 = 32 ∨ (Rect.block (s := S8x3x4096) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x4096.size a
  hwx0_2 : ∀ i : grid0.Coords, EltTy.bits .f32 = 32 ∨ (Rect.block (s := S4x4096) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S8x2048x4096.size a
  hwx0_4 : ∀ i : grid0.Coords, EltTy.bits .f32 = 32 ∨ (Rect.block (s := S8x2048x4096) S1x2048x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x512.size a ≤ S8x4x4096.size a
  hwx0_5 : ∀ i : grid0.Coords, EltTy.bits .f32 = 32 ∨ (Rect.block (s := S8x4x4096) S1x4x512.size (cc0_transform_5 i) (hinb0_5 i)).WholeWords (EltTy.packing .f32)

variable [Facts₀]

def gather_S8x4x4096_S8x1_S8x4x4096_12_0_n_n_0_1_144096 : GatherDims S8x4x4096 S8x1 S8x4x4096 where
  offsetDims := [1, 2]
  collapsedSliceDims := [0]
  operandBatchingDims := []
  startIndicesBatchingDims := []
  startIndexMap := [0]
  indexVectorDim := 1
  sliceSizes := ![1, 4, 4096]
  wf := gather_S8x4x4096_S8x1_S8x4x4096_12_0_n_n_0_1_144096_wf
def scatter_S8x4x4096_S8x1_S8x4x4096_12_0_0_1 : ScatterDims S8x4x4096 S8x1 S8x4x4096 where
  updateWindowDims := [1, 2]
  insertedWindowDims := [0]
  scatterDimsToOperandDims := [0]
  indexVectorDim := 1
  wf := scatter_S8x4x4096_S8x1_S8x4x4096_12_0_0_1_wf

abbrev win0_0 : Pipeline.Window sig grid0 :=
  Pipeline.Window.ofSpec (Memref.whole main_v0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S1x2048x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S1x4x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x16384x4096 : Shape := ⟨3, ![1, 16384, 4096]⟩
abbrev S4096x1x4 : Shape := ⟨3, ![4096, 1, 4]⟩
abbrev S4096 : Shape := ⟨1, ![4096]⟩
abbrev S8x4x4096 : Shape := ⟨3, ![8, 4, 4096]⟩
abbrev S8 : Shape := ⟨1, ![8]⟩
abbrev S4096x4 : Shape := ⟨2, ![4096, 4]⟩
abbrev S16384x4096 : Shape := ⟨2, ![16384, 4096]⟩
abbrev S8x2048x4096 : Shape := ⟨3, ![8, 2048, 4096]⟩
abbrev S8x4096x2048 : Shape := ⟨3, ![8, 4096, 2048]⟩
abbrev S_ : Shape := ⟨0, ![]⟩
abbrev S8x1 : Shape := ⟨2, ![8, 1]⟩
abbrev S8x4096x4 : Shape := ⟨3, ![8, 4096, 4]⟩
abbrev S8x4096x3 : Shape := ⟨3, ![8, 4096, 3]⟩
abbrev S8x1x1 : Shape := ⟨3, ![8, 1, 1]⟩
abbrev S8x4096x2051 : Shape := ⟨3, ![8, 4096, 2051]⟩
abbrev S1x4096x1 : Shape := ⟨3, ![1, 4096, 1]⟩
abbrev S4096x1 : Shape := ⟨2, ![4096, 1]⟩

abbrev nBuf : Space → Nat
  | .hbm => 82
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S4096x1x4, .f32⟩
  | .hbm, ⟨2, _⟩ => ⟨S4096, .f32⟩
  | .hbm, ⟨3, _⟩ => ⟨S8x4x4096, .f32⟩
  | .hbm, ⟨4, _⟩ => ⟨S8, .i32⟩
  | .hbm, ⟨5, _⟩ => ⟨S8, .i1⟩
  | .hbm, ⟨6, _⟩ => ⟨S4096x4, .f32⟩
  | .hbm, ⟨7, _⟩ => ⟨S16384x4096, .f32⟩
  | .hbm, ⟨8, _⟩ => ⟨S8x2048x4096, .f32⟩
  | .hbm, ⟨9, _⟩ => ⟨S8x4096x2048, .f32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S8x1, .i32⟩
  | .hbm, ⟨18, _⟩ => ⟨S8x4x4096, .f32⟩
  | .hbm, ⟨19, _⟩ => ⟨S8x4096x4, .f32⟩
  | .hbm, ⟨20, _⟩ => ⟨S8x4096x3, .f32⟩
  | .hbm, ⟨21, _⟩ => ⟨S8x1x1, .i1⟩
  | .hbm, ⟨22, _⟩ => ⟨S_, .f32⟩
  | .hbm, ⟨23, _⟩ => ⟨S8x4096x3, .f32⟩
  | .hbm, ⟨24, _⟩ => ⟨S8x4096x3, .i1⟩
  | .hbm, ⟨25, _⟩ => ⟨S8x4096x3, .f32⟩
  | .hbm, ⟨26, _⟩ => ⟨S8x4096x2051, .f32⟩
  | .hbm, ⟨27, _⟩ => ⟨S1x4096x1, .f32⟩
  | .hbm, ⟨28, _⟩ => ⟨S4096x1, .f32⟩
  | .hbm, ⟨29, _⟩ => ⟨S4096, .f32⟩
  | .hbm, ⟨30, _⟩ => ⟨S1x4096x1, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S_, .f32⟩
  | .hbm, ⟨35, _⟩ => ⟨S8x4096x2048, .f32⟩
  | .hbm, ⟨36, _⟩ => ⟨S8x4096x2048, .f32⟩
  | .hbm, ⟨37, _⟩ => ⟨S4096x1, .f32⟩
  | .hbm, ⟨38, _⟩ => ⟨S4096, .f32⟩
  | .hbm, ⟨39, _⟩ => ⟨S1x4096x1, .f32⟩
  | .hbm, ⟨40, _⟩ => ⟨S8x4096x2048, .f32⟩
  | .hbm, ⟨41, _⟩ => ⟨S8x4096x2048, .f32⟩
  | .hbm, ⟨42, _⟩ => ⟨S8x4096x2048, .f32⟩
  | .hbm, ⟨43, _⟩ => ⟨S8x4096x2048, .f32⟩
  | .hbm, ⟨44, _⟩ => ⟨S4096x1, .f32⟩
  | .hbm, ⟨45, _⟩ => ⟨S4096, .f32⟩
  | .hbm, ⟨46, _⟩ => ⟨S1x4096x1, .f32⟩
  | .hbm, ⟨47, _⟩ => ⟨S8x4096x2048, .f32⟩
  | .hbm, ⟨48, _⟩ => ⟨S8x4096x2048, .f32⟩
  | .hbm, ⟨49, _⟩ => ⟨S8x4096x2048, .f32⟩
  | .hbm, ⟨50, _⟩ => ⟨S8x4096x2048, .f32⟩
  | .hbm, ⟨51, _⟩ => ⟨S4096x1, .f32⟩
  | .hbm, ⟨52, _⟩ => ⟨S4096, .f32⟩
  | .hbm, ⟨53, _⟩ => ⟨S1x4096x1, .f32⟩
  | .hbm, ⟨54, _⟩ => ⟨S8x4096x2048, .f32⟩
  | .hbm, ⟨55, _⟩ => ⟨S8x4096x2048, .f32⟩
  | .hbm, ⟨56, _⟩ => ⟨S8x4096x2048, .f32⟩
  | .hbm, ⟨57, _⟩ => ⟨S8x4096x2048, .f32⟩
  | .hbm, ⟨58, _⟩ => ⟨S8x4096x2048, .f32⟩
  | .hbm, ⟨59, _⟩ => ⟨S8x4096x2048, .f32⟩
  | .hbm, ⟨60, _⟩ => ⟨S8x4096x2048, .f32⟩
  | .hbm, ⟨61, _⟩ => ⟨S8x4096x2048, .f32⟩
  | .hbm, ⟨62, _⟩ => ⟨S_, .f32⟩
  | .hbm, ⟨63, _⟩ => ⟨S8x4096x2048, .f32⟩
  | .hbm, ⟨64, _⟩ => ⟨S8x4096x2048, .f32⟩
  | .hbm, ⟨65, _⟩ => ⟨S_, .f32⟩
  | .hbm, ⟨66, _⟩ => ⟨S8x4096x2048, .f32⟩
  | .hbm, ⟨67, _⟩ => ⟨S8x4096x2048, .f32⟩
  | .hbm, ⟨68, _⟩ => ⟨S8x4096x2048, .f32⟩
  | .hbm, ⟨69, _⟩ => ⟨S8x4096x4, .f32⟩
  | .hbm, ⟨70, _⟩ => ⟨S8x4x4096, .f32⟩
  | .hbm, ⟨71, _⟩ => ⟨S_, .i32⟩
  | .hbm, ⟨72, _⟩ => ⟨S8, .i32⟩
  | .hbm, ⟨73, _⟩ => ⟨S8, .i1⟩
  | .hbm, ⟨74, _⟩ => ⟨S_, .i32⟩
  | .hbm, ⟨75, _⟩ => ⟨S8, .i32⟩
  | .hbm, ⟨76, _⟩ => ⟨S8, .i32⟩
  | .hbm, ⟨77, _⟩ => ⟨S8, .i32⟩
  | .hbm, ⟨78, _⟩ => ⟨S8x1, .i32⟩
  | .hbm, ⟨79, _⟩ => ⟨S8x4x4096, .f32⟩
  | .hbm, ⟨80, _⟩ => ⟨S8x2048x4096, .f32⟩
  | .hbm, ⟨81, _⟩ => ⟨S1x16384x4096, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_2 : Ref sig .tc := ⟨.hbm, 71, rfl⟩
abbrev main_v52 : Ref sig .tc := ⟨.hbm, 72, rfl⟩
abbrev main_v53 : Ref sig .tc := ⟨.hbm, 73, rfl⟩
abbrev main_c_3 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]

class Facts₀ : Prop where
  shapeCasts_S4096x1x4_S4096x4 : S4096x1x4.ShapeCasts S4096x4
  shapeCasts_S1x16384x4096_S16384x4096 : S1x16384x4096.ShapeCasts S16384x4096
  shapeCasts_S16384x4096_S8x2048x4096 : S16384x4096.ShapeCasts S8x2048x4096
  transposes_S8x2048x4096_S8x4096x2048_0_2_1 : S8x2048x4096.Transposes [0, 2, 1] S8x4096x2048
  bcast_S_S8 : S_.BroadcastsInDim S8 (![] : Fin 0 → Fin S8.rank)
  bcast_S8_S8x1_0 : S8.BroadcastsInDim S8x1 (![0] : Fin 1 → Fin S8x1.rank)
  transposes_S8x4x4096_S8x4096x4_0_2_1 : S8x4x4096.Transposes [0, 2, 1] S8x4096x4
  slices_S8x4096x4_S8x4096x3_0_0_1 : S8x4096x4.Slices ![0, 0, 1] S8x4096x3
  bcast_S8_S8x1x1_0 : S8.BroadcastsInDim S8x1x1 (![0] : Fin 1 → Fin S8x1x1.rank)
  bcast_S_S8x4096x3 : S_.BroadcastsInDim S8x4096x3 (![] : Fin 0 → Fin S8x4096x3.rank)
  bcast_S8x1x1_S8x4096x3_0_1_2 : S8x1x1.BroadcastsInDim S8x4096x3 (![0, 1, 2] : Fin 3 → Fin S8x4096x3.rank)
  concatenates_S8x4096x3_S8x4096x2048_S8x4096x2051_d2 : Shape.Concatenates [S8x4096x3, S8x4096x2048] S8x4096x2051 2
  bcast_S4096_S1x4096x1_1 : S4096.BroadcastsInDim S1x4096x1 (![1] : Fin 1 → Fin S1x4096x1.rank)
  slices_S4096x4_S4096x1_0_0 : S4096x4.Slices ![0, 0] S4096x1
  shapeCasts_S4096x1_S4096 : S4096x1.ShapeCasts S4096
  slices_S8x4096x2051_S8x4096x2048_0_0_0 : S8x4096x2051.Slices ![0, 0, 0] S8x4096x2048
  bcast_S1x4096x1_S8x4096x2048_0_1_2 : S1x4096x1.BroadcastsInDim S8x4096x2048 (![0, 1, 2] : Fin 3 → Fin S8x4096x2048.rank)
  bcast_S_S8x4096x2048 : S_.BroadcastsInDim S8x4096x2048 (![] : Fin 0 → Fin S8x4096x2048.rank)
  slices_S4096x4_S4096x1_0_1 : S4096x4.Slices ![0, 1] S4096x1
  slices_S8x4096x2051_S8x4096x2048_0_0_1 : S8x4096x2051.Slices ![0, 0, 1] S8x4096x2048
  slices_S4096x4_S4096x1_0_2 : S4096x4.Slices ![0, 2] S4096x1
  slices_S8x4096x2051_S8x4096x2048_0_0_2 : S8x4096x2051.Slices ![0, 0, 2] S8x4096x2048
  slices_S4096x4_S4096x1_0_3 : S4096x4.Slices ![0, 3] S4096x1
  slices_S8x4096x2051_S8x4096x2048_0_0_3 : S8x4096x2051.Slices ![0, 0, 3] S8x4096x2048
  slices_S8x4096x2051_S8x4096x4_0_0_2047 : S8x4096x2051.Slices ![0, 0, 2047] S8x4096x4
  transposes_S8x4096x4_S8x4x4096_0_2_1 : S8x4096x4.Transposes [0, 2, 1] S8x4x4096
  transposes_S8x4096x2048_S8x2048x4096_0_2_1 : S8x4096x2048.Transposes [0, 2, 1] S8x2048x4096
  shapeCasts_S8x2048x4096_S1x16384x4096 : S8x2048x4096.ShapeCasts S1x16384x4096
  gather_S8x4x4096_S8x1_S8x4x4096_12_0_n_n_0_1_144096_wf : GatherDims.WF S8x4x4096 S8x1 S8x4x4096 [1, 2] [0] [] [0] [] 1 ![1, 4, 4096]
  scatter_S8x4x4096_S8x1_S8x4x4096_12_0_0_1_wf : ScatterDims.WF S8x4x4096 S8x1 S8x4x4096 [1, 2] [0] [0] 1

variable [Facts₀]

def gather_S8x4x4096_S8x1_S8x4x4096_12_0_n_n_0_1_144096 : GatherDims S8x4x4096 S8x1 S8x4x4096 where
  offsetDims := [1, 2]
  collapsedSliceDims := [0]
  operandBatchingDims := []
  startIndicesBatchingDims := []
  startIndexMap := [0]
  indexVectorDim := 1
  sliceSizes := ![1, 4, 4096]
  wf := gather_S8x4x4096_S8x1_S8x4x4096_12_0_n_n_0_1_144096_wf
def scatter_S8x4x4096_S8x1_S8x4x4096_12_0_0_1 : ScatterDims S8x4x4096 S8x1 S8x4x4096 where
  updateWindowDims := [1, 2]
  insertedWindowDims := [0]
  scatterDimsToOperandDims := [0]
  indexVectorDim := 1
  wf := scatter_S8x4x4096_S8x1_S8x4x4096_12_0_0_1_wf

class Facts : Prop extends Facts₀ where

variable [Facts]
-- ==== Proof.Spec.lean ====
/-
  The mathematics of the certificate, with no program in sight.

  Eight sequences of 2048 rows and 4096 channels lie packed in `x : [1, 16384, 4096]` (row `n` of the packed array is
  row `n % 2048` of sequence `n / 2048`). Each channel `d` carries its own causal filter of four taps `w(d, 0, ·)`
  and a bias. In front of sequence `b` stand three context rows: rows 1, 2, 3 of a cached state `g(b, ·, ·)` when
  the flag `has(b)` is set, zeros otherwise. With `pad(b, ·, d)` the 2051 padded rows,

      conv(b, l, d) = bias(d) + pad(b, l, d)·w(d,0,0) + pad(b, l+1, d)·w(d,0,1) + pad(b, l+2, d)·w(d,0,2) + pad(b, l+3, d)·w(d,0,3)

  and the result is `silu(conv)`, `silu a = a · (1 / (1 + e^(−a)))`. The new cached state of sequence `b` is the last
  four padded rows, which are rows 2044 … 2047 of the sequence itself. Everything is over the extended reals; only
  the commutative-monoid laws of `+` and `·` are used, so no finiteness is needed anywhere.
-/
import Idealize.ShloMosaic.PureOps.Ideal
import Idealize.ShloMosaic.Lib.ValueIdx

noncomputable section

namespace Cert.CausalConv

open Idealize.ShloMosaic Idealize.ShloMosaic.ValueIdx

/-- The packed input and output, `[1, 16384, 4096]`. -/
abbrev SX : Shape := ⟨3, ![1, 16384, 4096]⟩
/-- The filters, `[4096, 1, 4]`. -/
abbrev SW : Shape := ⟨3, ![4096, 1, 4]⟩
/-- The bias, `[4096]`. -/
abbrev SB : Shape := ⟨1, ![4096]⟩
/-- The cached state, `[8, 4, 4096]`. -/
abbrev SC : Shape := ⟨3, ![8, 4, 4096]⟩
/-- The per-sequence flags, `[8]`. -/
abbrev SH : Shape := ⟨1, ![8]⟩
/-- The sequences side by side, `[8, 2048, 4096]`. -/
abbrev SO : Shape := ⟨3, ![8, 2048, 4096]⟩

variable (x : SX.Idx → EReal) (w : SW.Idx → EReal) (bias : SB.Idx → EReal) (g : SC.Idx → EReal) (has : SH.Idx → BitVec 1)

/-- Row `l` of sequence `b`, channel `d`: row `2048·b + l` of the packed input. -/
def seqRow (b : Fin 8) (l : Fin 2048) (d : Fin 4096) : EReal :=
  x (ix3 (0 : Fin 1) (⟨b.val * 2048 + l.val, by have := b.isLt; have := l.isLt; omega⟩ : Fin 16384) d)

/-- Context row `p` (of three) in front of sequence `b`: row `p + 1` of the cached state if the sequence has one, else zero. -/
def ctxRow (b : Fin 8) (p : Fin 3) (d : Fin 4096) : EReal :=
  Scalar.select (has (ix1 b)) (g (ix3 b (⟨p.val + 1, by have := p.isLt; omega⟩ : Fin 4) d)) (Ideal.ofBits .f32 0x00000000#32)

/-- Padded row `p` (of 2051) of sequence `b`: the three context rows, then the sequence. -/
def padRow (b : Fin 8) (p : Nat) (hp : p < 2051) (d : Fin 4096) : EReal :=
  if h : p < 3 then ctxRow g has b ⟨p, h⟩ d else seqRow x b ⟨p - 3, by omega⟩ d

/-- Tap `j` of channel `d`'s filter. -/
def tap (j : Fin 4) (d : Fin 4096) : EReal := w (ix3 d (0 : Fin 1) j)

/-- The causal convolution at row `l` of sequence `b`, channel `d`, summed left to right from the bias. -/
def convAt (b : Fin 8) (l : Fin 2048) (d : Fin 4096) : EReal :=
  (((bias (ix1 d) + padRow x g has b (0 + l.val) (by have := l.isLt; omega) d * tap w 0 d)
      + padRow x g has b (1 + l.val) (by have := l.isLt; omega) d * tap w 1 d)
      + padRow x g has b (2 + l.val) (by have := l.isLt; omega) d * tap w 2 d)
      + padRow x g has b (3 + l.val) (by have := l.isLt; omega) d * tap w 3 d

/-- `silu a = a · (1 / (1 + e^(−a)))` on the extended reals (the quotient is the ideal instance's division). -/
def silu (a : EReal) : EReal :=
  a * Ideal.div (Ideal.ofBits .f32 0x3F800000#32) (Ideal.ofBits .f32 0x3F800000#32 + Ideal.exp (-a))

/-- The activated convolution, sequences side by side. -/
def outSeq : SO.Idx → EReal := fun i => silu (convAt x w bias g has (i 0) (i 1) (i 2))

/-- The activated convolution, packed: row `n` is row `n % 2048` of sequence `n / 2048`. -/
def outPacked : SX.Idx → EReal := fun i =>
  outSeq x w bias g has (ix3 (⟨(i 1).val / 2048, by have : (i 1).val < 16384 := (i 1).isLt; omega⟩ : Fin 8)
    (⟨(i 1).val % 2048, Nat.mod_lt _ (by norm_num)⟩ : Fin 2048) (i 2))

/-- The new cached state: rows 2044 … 2047 of each sequence. -/
def newState : SC.Idx → EReal := fun i =>
  seqRow x (i 0) (⟨2044 + (i 1).val, by have : (i 1).val < 4 := (i 1).isLt; omega⟩ : Fin 2048) (i 2)

/-- A padded row from the third on is a row of the sequence. -/
theorem padRow_of_ge (b : Fin 8) (p : Nat) (hp : p < 2051) (h3 : 3 ≤ p) (d : Fin 4096) :
    padRow x g has b p hp d = seqRow x b ⟨p - 3, by omega⟩ d := by
  unfold padRow; rw [dif_neg (by omega)]

/-- One of the first three padded rows is a context row. -/
theorem padRow_of_lt (b : Fin 8) (p : Nat) (hp : p < 2051) (h3 : p < 3) (d : Fin 4096) :
    padRow x g has b p hp d = ctxRow g has b ⟨p, h3⟩ d := by
  unfold padRow; rw [dif_pos h3]

/-- The two summation orders agree: the bias first and taps added left to right, or the taps summed from zero (each
    product with its factors the other way round) and the bias added in front. Commutativity and associativity only. -/
theorem sum_order (b t0 t1 t2 t3 u0 u1 u2 u3 : EReal) :
    b + ((((0 + u0 * t0) + u1 * t1) + u2 * t2) + u3 * t3) = (((b + t0 * u0) + t1 * u1) + t2 * u2) + t3 * u3 := by
  rw [zero_add, mul_comm u0, mul_comm u1, mul_comm u2, mul_comm u3]
  simp only [add_assoc]

/-- Zero minus a number is its negative. -/
theorem zero_sub' (a : EReal) : (0 : EReal) - a = -a := zero_sub a

end Cert.CausalConv

end
-- ==== Proof.Packed.lean ====
/-
  The sequences side by side, `[8, 2048, 4096]`, re-read as one packed array `[1, 16384, 4096]`: packed row `n` is row
  `n % 2048` of sequence `n / 2048` (both arrays list their elements in the same row-major order).
-/
import proofs.«153150_j67276367725129_1_alg».proof.Proof.Spec
import Idealize.ShloMosaic.Lib.Pipeline.Value

noncomputable section

namespace Cert.CausalConv

open Idealize.ShloMosaic Idealize.ShloMosaic.ValueIdx

/-- The activated convolution with its sequences side by side, cast to the packed shape, is the packed activated convolution. -/
theorem packed_eq (x : SX.Idx → EReal) (w : SW.Idx → EReal) (bias : SB.Idx → EReal) (g : SC.Idx → EReal) (has : SH.Idx → BitVec 1)
    (h : SO.ShapeCasts SX) : shapeCast SX (outSeq x w bias g has) h = outPacked x w bias g has := by
  funext i
  have h0 : (i 0).val < 1 := (i 0).isLt
  have h1 : (i 1).val < 16384 := (i 1).isLt
  have h2 : (i 2).val < 4096 := (i 2).isLt
  refine (shapeCast_apply (outSeq x w bias g has) h i
    (ix3 (⟨(i 1).val / 2048, by omega⟩ : Fin 8) (⟨(i 1).val % 2048, Nat.mod_lt _ (by norm_num)⟩ : Fin 2048) (i 2)) ?_).trans rfl
  rw [Shape.rowMajor_val_three, Shape.rowMajor_val_three]
  show ((i 1).val / 2048 * 2048 + (i 1).val % 2048) * 4096 + (i 2).val = ((i 0).val * 16384 + (i 1).val) * 4096 + (i 2).val
  omega

end Cert.CausalConv

end
-- ==== Proof.Entry.lean ====
/-
  The four arrays the kernel's grid reads, as the host lines before the launch leave them, read at an index.

  The packed input `[1, 16384, 4096]` is viewed as eight sequences `[8, 2048, 4096]` (row `l` of sequence `b` is packed
  row `2048·b + l`); the filters `[4096, 1, 4]` are flattened and transposed to `[4, 4096]` (tap `j` of channel `d` sits
  at `(j, d)`); the bias becomes a `[1, 4096]` row; and the context rows `[8, 3, 4096]` are rows 1 … 3 of the gathered
  cached state where the sequence's flag is set and zero elsewhere. The gathered state itself — which cached rows the
  row numbers select — is never opened: the reference gathers with the same row numbers.
-/
import proofs.«153150_j67276367725129_1_alg».proof.Proof.Gen.KernelIdeal.Frame
import proofs.«153150_j67276367725129_1_alg».proof.Proof.Spec
import Idealize.ShloMosaic.Lib.Pipeline.Value
import Idealize.ShloMosaic.Lib.ValueLayout
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.CausalConv

/-- The row numbers the gather and the scatter use: a negative number counts from the end (8 is added), as a `[8, 1]` column. -/
def rowIds (ids : S8.Idx → BitVec 32) : S8x1.Idx → BitVec 32 :=
  broadcastInDim S8x1 ![0] bcast_S8_S8x1_0
    (select (cmpi .slt ids (broadcastInDim S8 ![] bcast_S_S8 (constantI S_ 32 0#32)))
      (addi ids (broadcastInDim S8 ![] bcast_S_S8 (constantI S_ 32 8#32))) ids)

/-- The cached state gathered at those row numbers. -/
def gathered (st : S8x4x4096.Idx → EReal) (ids : S8.Idx → BitVec 32) : S8x4x4096.Idx → EReal :=
  Host.gather gather_S8x4x4096_S8x1_S8x4x4096_12_0_n_n_0_1_144096 st (rowIds ids)

/-- The three context rows per sequence. -/
def context (st : S8x4x4096.Idx → EReal) (ids : S8.Idx → BitVec 32) (has : S8.Idx → BitVec 1) : S8x3x4096.Idx → EReal :=
  select (broadcastInDim S8x3x4096 ![0, 1, 2] bcast_S8x1x1_S8x3x4096_0_1_2 (broadcastInDim S8x1x1 ![0] bcast_S8_S8x1x1_0 has))
    (extractStridedSlice S8x3x4096 ![0, 1, 0] (gathered st ids) slices_S8x4x4096_S8x3x4096_0_1_0)
    (broadcastInDim S8x3x4096 ![] bcast_S_S8x3x4096 (constant (F := Ideal) S_ .f32 0x00000000#32))

/-- The packed input viewed as eight sequences, at `(b, l, d)`. -/
theorem sequences_apply (x : S1x16384x4096.Idx → EReal) (h : S1x16384x4096.ShapeCasts S8x2048x4096) (b : Fin 8) (l : Fin 2048) (d : Fin 4096) :
    shapeCast S8x2048x4096 x h (ix3 b l d) = seqRow x b l d := by
  unfold seqRow
  refine shapeCast_apply x h _ _ ?_
  rw [Shape.rowMajor_val_three, Shape.rowMajor_val_three]
  show ((0 * 16384 + (b.val * 2048 + l.val)) * 4096 + d.val) = (b.val * 2048 + l.val) * 4096 + d.val
  omega

/-- The transposed filters at `(j, d)`. -/
theorem taps_apply (w : S4096x1x4.Idx → EReal) (h : S4096x1x4.ShapeCasts S4096x4) (h' : S4096x4.Transposes [1, 0] S4x4096) (j : Fin 4) (d : Fin 4096) :
    transpose S4x4096 [1, 0] (shapeCast S4096x4 w h) h' (ix2 j d) = tap w j d := by
  unfold tap
  rw [transpose_ix2_apply]
  refine shapeCast_apply w h _ _ ?_
  rw [Shape.rowMajor_val_three, Shape.rowMajor_val_two]
  show (d.val * 1 + 0) * 4 + j.val = d.val * 4 + j.val
  omega

/-- The bias row at `(0, d)`. -/
theorem biasRow_apply (bias : S4096.Idx → EReal) (h : S4096.ShapeCasts S1x4096) (d : Fin 4096) :
    shapeCast S1x4096 bias h (ix2 (0 : Fin 1) d) = bias (ix1 d) :=
  shapeCast_a_1a_apply bias h 0 d

/-- The context rows at `(b, p, d)`. -/
theorem context_apply (st : S8x4x4096.Idx → EReal) (ids : S8.Idx → BitVec 32) (has : S8.Idx → BitVec 1) (b : Fin 8) (p : Fin 3) (d : Fin 4096) :
    context st ids has (ix3 b p d) = ctxRow (gathered st ids) has b p d := by
  unfold context ctxRow
  rw [select_apply, slice3_axis1_eq]
  have e1 : broadcastInDim S8x3x4096 ![0, 1, 2] bcast_S8x1x1_S8x3x4096_0_1_2 (broadcastInDim S8x1x1 ![0] bcast_S8_S8x1x1_0 has) (ix3 b p d) = has (ix1 b) := by
    refine (broadcastInDim_apply _ _ _ (ix3 b p d) (ix3 b (0 : Fin 1) (0 : Fin 1)) (fun a => match a with | ⟨0, _⟩ => rfl | ⟨1, _⟩ => rfl | ⟨2, _⟩ => rfl)).trans ?_
    exact broadcastInDim_apply _ _ _ (ix3 b (0 : Fin 1) (0 : Fin 1)) (ix1 b) (fun a => match a with | ⟨0, _⟩ => rfl)
  rw [e1]
  congr 2
  · exact congrArg (fun r => ix3 b r d) (Fin.ext (by show 1 + p.val = p.val + 1; omega))

variable (m : (ℓ : Loc nD τ sig) → Buf (Elt Ideal) ℓ)

/-- The first window's array when the launch begins. -/
theorem sequences_eq (c : Dev nD) : (V m c main_v0 : S8x2048x4096.Idx → EReal)
    = shapeCast S8x2048x4096 (m ((c : Thread nD τ).loc main_arg0)) shapeCasts_S1x16384x4096_S8x2048x4096 := by
  dsimp only [Gen.V, Gen.V0]
  simp only [Gen.hostOps0, Gen.hostOps0_1, Gen.hostOps0_2, List.flatten_cons, List.flatten_nil, List.append_nil, List.cons_append, List.nil_append]
  after_results
  rfl

set_option maxHeartbeats 4000000 in
/-- The second window's array when the launch begins. -/
theorem context_eq (c : Dev nD) : (V m c main_v11 : S8x3x4096.Idx → EReal)
    = context (m ((c : Thread nD τ).loc main_arg3)) (m ((c : Thread nD τ).loc main_arg4)) (m ((c : Thread nD τ).loc main_arg5)) := by
  unfold context gathered rowIds
  dsimp only [Gen.V, Gen.V0]
  simp only [Gen.hostOps0, Gen.hostOps0_1, Gen.hostOps0_2, List.flatten_cons, List.flatten_nil, List.append_nil, List.cons_append, List.nil_append]
  after_results
  rfl

/-- The third window's array when the launch begins. -/
theorem taps_eq (c : Dev nD) : (V m c main_v13 : S4x4096.Idx → EReal)
    = transpose S4x4096 [1, 0] (shapeCast S4096x4 (m ((c : Thread nD τ).loc main_arg1)) shapeCasts_S4096x1x4_S4096x4) transposes_S4096x4_S4x4096_1_0 := by
  dsimp only [Gen.V, Gen.V0]
  simp only [Gen.hostOps0, Gen.hostOps0_1, Gen.hostOps0_2, List.flatten_cons, List.flatten_nil, List.append_nil, List.cons_append, List.nil_append]
  after_results
  rfl

/-- The fourth window's array when the launch begins. -/
theorem biasRow_eq (c : Dev nD) : (V m c main_v14 : S1x4096.Idx → EReal)
    = shapeCast S1x4096 (m ((c : Thread nD τ).loc main_arg2)) shapeCasts_S4096_S1x4096 := by
  dsimp only [Gen.V, Gen.V0]
  simp only [Gen.hostOps0, Gen.hostOps0_1, Gen.hostOps0_2, List.flatten_cons, List.flatten_nil, List.append_nil, List.cons_append, List.nil_append]
  after_results
  rfl

end Cert.KernelIdeal.Entry

end
-- ==== Proof.Block.lean ====
/-
  One grid point of the kernel, as arithmetic on its four input blocks.

  A grid point sees a block `x0 : [1, 2048, 512]` of one sequence (512 channels), the three context rows
  `x1 : [1, 3, 512]`, the four taps `x2 : [4, 512]` and the bias `x3 : [1, 512]`. It stacks the context rows on top of
  the sequence (2051 rows), takes the four windows of 2048 rows starting at rows 0, 1, 2, 3, multiplies window `j` by tap
  `j` (a row broadcast down the window), adds them to the broadcast bias left to right, and applies `a · (1 / (1 + e^(0 − a)))`.
  The second output is rows 2047 … 2050 of the stack. Here each store's value is read at one index `(l, q)`.
-/
import proofs.«153150_j67276367725129_1_alg».proof.Proof.Gen.KernelIdeal.Frame
import proofs.«153150_j67276367725129_1_alg».proof.Proof.Spec
import Idealize.ShloMosaic.Lib.Pipeline.Value
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

variable (x0 : Vec Ideal S1x2048x512 .f32) (x1 : Vec Ideal S1x3x512 .f32) (x2 : Vec Ideal S4x512 .f32) (x3 : Vec Ideal S1x512 .f32)

/-- Row `p` of the stack of the three context rows on the 2048 sequence rows, at channel `q` of the block. -/
def stackRow (p : Nat) (hp : p < 2051) (q : Fin 512) : EReal :=
  if h : p < 3 then x1 (ix3 (0 : Fin 1) (⟨p, h⟩ : Fin 3) q) else x0 (ix3 (0 : Fin 1) (⟨p - 3, by omega⟩ : Fin 2048) q)

/-- The stack read at `(p, q)`. -/
theorem stack_apply (p : Fin 2051) (q : Fin 512) : k0_pay3 x0 x1 (ix2 p q) = stackRow x0 x1 p.val p.isLt q := by
  unfold k0_pay3 stackRow
  by_cases h : p.val < 3
  · rw [dif_pos h]
    refine (concatenate_pair_apply_left (t := S2051x512) (s₁ := S3x512) (s₂ := S2048x512) (0 : Fin 2) _ _ _ (ix2 p q) rfl (ix2 (⟨p.val, h⟩ : Fin 3) q)
      (fun b => match b with | ⟨0, _⟩ => rfl | ⟨1, _⟩ => rfl)).trans ?_
    exact shapeCast_1ab_ab_apply x1 _ _ _
  · rw [dif_neg h]
    refine (concatenate_pair_apply_right (t := S2051x512) (s₁ := S3x512) (s₂ := S2048x512) (0 : Fin 2) _ _ _ (ix2 p q) rfl rfl (ix2 (⟨p.val - 3, by have := p.isLt; omega⟩ : Fin 2048) q)
      (fun b hb => match b, hb with | ⟨0, _⟩, hb => absurd rfl hb | ⟨1, _⟩, _ => rfl) (by show p.val - 3 + 3 = p.val; omega)).trans ?_
    exact shapeCast_1ab_ab_apply x0 _ _ _

/-- A window of 2048 rows of the stack starting at row `o`, read at `(l, q)`: row `o + l`. -/
theorem window_apply (o : Nat) (h : S2051x512.Slices ![o, 0] S2048x512) (l : Fin 2048) (q : Fin 512) :
    extractStridedSlice S2048x512 ![o, 0] (k0_pay3 x0 x1) h (ix2 l q)
      = stackRow x0 x1 (o + l.val) (Nat.lt_of_lt_of_le (Nat.add_lt_add_left l.isLt o) (h.2 0)) q :=
  (slice2_axis0_eq o _ h l q).trans (stack_apply x0 x1 _ q)

/-- A `[1, 512]` row flattened, unflattened and broadcast down 2048 rows reads the row at every `(l, q)`. -/
theorem rowDown_apply (v : Vec Ideal S1x512 .f32) (h1 : S1x512.ShapeCasts S512) (h2 : S512.ShapeCasts S1x512)
    (h3 : S1x512.Broadcasts S2048x512) (l : Fin 2048) (q : Fin 512) :
    broadcastTo S2048x512 (shapeCast S1x512 (shapeCast S512 v h1) h2) h3 (ix2 l q) = v (ix2 (0 : Fin 1) q) := by
  rw [broadcastTo_1b_ab_apply, shapeCast_shapeCast]

/-- The same with one more cast of the row to its own shape (the bias). -/
theorem rowDown_apply' (v : Vec Ideal S1x512 .f32) (h1 : S1x512.ShapeCasts S512) (h2 : S512.ShapeCasts S1x512)
    (h2' : S1x512.ShapeCasts S1x512) (h3 : S1x512.Broadcasts S2048x512) (l : Fin 2048) (q : Fin 512) :
    broadcastTo S2048x512 (shapeCast S1x512 (shapeCast S1x512 (shapeCast S512 v h1) h2) h2') h3 (ix2 l q) = v (ix2 (0 : Fin 1) q) := by
  rw [broadcastTo_1b_ab_apply, shapeCast_self, shapeCast_shapeCast]

/-- Row `j` of the taps block, as the body loads it, read at channel `q`. -/
theorem tapRow_apply (j : Nat) (hj : j < 4) (inb : ∀ a, (![j, 0] : Fin 2 → Nat) a + S1x512.size a ≤ S4x512.size a) (q : Fin 512) :
    View.ld x2 (Rect.unit (s := S4x512) ![j, 0] S1x512.size inb) (ix2 (0 : Fin 1) q) = x2 (ix2 (⟨j, hj⟩ : Fin 4) q) := by
  show x2 _ = x2 _
  congr 1
  funext a; apply Fin.ext
  match a with
  | ⟨0, _⟩ => show j + 1 * 0 = j; omega
  | ⟨1, _⟩ => show 0 + 1 * q.val = q.val; omega

/-- The convolution of one grid point at `(l, q)`: the bias, then window `j` times tap `j`, added left to right. -/
def blockConv (l : Fin 2048) (q : Fin 512) : EReal :=
  (((x3 (ix2 (0 : Fin 1) q) + stackRow x0 x1 (0 + l.val) (by have := l.isLt; omega) q * x2 (ix2 (0 : Fin 4) q))
      + stackRow x0 x1 (1 + l.val) (by have := l.isLt; omega) q * x2 (ix2 (1 : Fin 4) q))
      + stackRow x0 x1 (2 + l.val) (by have := l.isLt; omega) q * x2 (ix2 (2 : Fin 4) q))
      + stackRow x0 x1 (3 + l.val) (by have := l.isLt; omega) q * x2 (ix2 (3 : Fin 4) q)

/-- The body's accumulated sum at `(l, q)`, over the rows it loaded. -/
theorem conv_apply (v5 v10 v17 v24 v31 : Vec Ideal S1x512 .f32) (l : Fin 2048) (q : Fin 512) :
    k0_pay4 x0 x1 v5 v10 v17 v24 v31 (ix2 l q)
      = (((v5 (ix2 (0 : Fin 1) q) + stackRow x0 x1 (0 + l.val) (by have := l.isLt; omega) q * v10 (ix2 (0 : Fin 1) q))
          + stackRow x0 x1 (1 + l.val) (by have := l.isLt; omega) q * v17 (ix2 (0 : Fin 1) q))
          + stackRow x0 x1 (2 + l.val) (by have := l.isLt; omega) q * v24 (ix2 (0 : Fin 1) q))
          + stackRow x0 x1 (3 + l.val) (by have := l.isLt; omega) q * v31 (ix2 (0 : Fin 1) q) := by
  unfold k0_pay4
  simp only [addf_apply, mulf_apply, window_apply]
  rw [rowDown_apply' v5, rowDown_apply v10, rowDown_apply v17, rowDown_apply v24, rowDown_apply v31]

theorem hz3 : (![0, 0, 0] : Fin 3 → Nat) = fun _ => 0 := funext fun a => by fin_cases a <;> rfl
theorem hz2 : (![0, 0] : Fin 2 → Nat) = fun _ => 0 := funext fun a => by fin_cases a <;> rfl

/-- What a grid point leaves in its first output block, at `(0, l, q)`: the activated convolution. -/
theorem out_apply (l : Fin 2048) (q : Fin 512) :
    out0_4 x0 x1 x2 x3 (ix3 (0 : Fin 1) l q) = Cert.CausalConv.silu (blockConv x0 x1 x2 x3 l q) := by
  unfold out0_4
  rw [View.canon_unit_zero hz3]
  simp only [View.ld_unit_zero (S := S1x2048x512) hz3, View.ld_unit_zero (S := S1x3x512) hz3, View.ld_unit_zero (S := S1x512) hz2]
  unfold k0_pay1 k0_pay5
  rw [shapeCast_ab_1ab_apply]
  show k0_pay4 x0 x1 x3 _ _ _ _ (ix2 l q) * Ideal.div (Ideal.ofBits .f32 0x3F800000#32)
      (Ideal.ofBits .f32 0x3F800000#32 + Ideal.exp (Ideal.ofBits .f32 0x00000000#32 - k0_pay4 x0 x1 x3 _ _ _ _ (ix2 l q))) = _
  rw [conv_apply, Ideal.ofBits_zero_f32, zero_sub,
    tapRow_apply x2 0 (by norm_num), tapRow_apply x2 1 (by norm_num), tapRow_apply x2 2 (by norm_num), tapRow_apply x2 3 (by norm_num)]
  rfl

/-- What a grid point leaves in its second output block, at `(0, k, q)`: row `2044 + k` of the sequence block. -/
theorem state_apply (k : Fin 4) (q : Fin 512) :
    out0_5 x0 x1 x2 x3 (ix3 (0 : Fin 1) k q) = x0 (ix3 (0 : Fin 1) (⟨2044 + k.val, by have := k.isLt; omega⟩ : Fin 2048) q) := by
  unfold out0_5
  rw [View.canon_unit_zero hz3]
  simp only [View.ld_unit_zero (S := S1x2048x512) hz3, View.ld_unit_zero (S := S1x3x512) hz3]
  unfold k0_pay2
  rw [shapeCast_ab_1ab_apply, slice2_axis0_eq, stack_apply]
  unfold stackRow
  rw [dif_neg (by show ¬ (2047 + k.val < 3); omega)]
  exact congrArg (fun r => x0 (ix3 (0 : Fin 1) r q)) (Fin.ext (by show 2047 + k.val - 3 = 2044 + k.val; omega))

end Cert.KernelIdeal.Block

end
-- ==== Proof.Arrays.lean ====
/-
  From grid points to whole arrays.

  The grid is 8 sequences by 8 channel tiles of 512. At point `(b, k)` every window's block has block index `b` on the
  sequence axis (where it has one), `0` on the row axis and `k` on the channel axis, so element `(0, l, q)` of a block is
  element `(b, l, 512·k + q)` of its array. Hence what the point writes back to the first output is its block of the
  activated convolution of the whole arrays, and to the second its block of the last four rows of each sequence. The
  64 blocks tile both outputs, so after the launch the two arrays ARE those functions.
-/
import proofs.«153150_j67276367725129_1_alg».proof.Proof.Gen.KernelIdeal.Frame
import proofs.«153150_j67276367725129_1_alg».proof.Proof.Spec
import proofs.«153150_j67276367725129_1_alg».proof.Proof.Block
import proofs.«153150_j67276367725129_1_alg».proof.Proof.Entry
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.CausalConv
open Idealize.ShloMosaic.Pipeline (Dat)

variable (m : (ℓ : Loc nD τ sig) → Buf (Elt Ideal) ℓ)

/-- The block indices of the six windows at every grid point, relative to the first output's. -/
theorem idx_facts : ∀ t : Fin cfg0.N,
    win0_4.index t (0 : Fin 3) < 8 ∧ win0_4.index t (1 : Fin 3) = 0 ∧ win0_4.index t (2 : Fin 3) < 8
    ∧ win0_0.index t (0 : Fin 3) = win0_4.index t (0 : Fin 3) ∧ win0_0.index t (1 : Fin 3) = 0 ∧ win0_0.index t (2 : Fin 3) = win0_4.index t (2 : Fin 3)
    ∧ win0_1.index t (0 : Fin 3) = win0_4.index t (0 : Fin 3) ∧ win0_1.index t (1 : Fin 3) = 0 ∧ win0_1.index t (2 : Fin 3) = win0_4.index t (2 : Fin 3)
    ∧ win0_2.index t (0 : Fin 2) = 0 ∧ win0_2.index t (1 : Fin 2) = win0_4.index t (2 : Fin 3)
    ∧ win0_3.index t (0 : Fin 2) = 0 ∧ win0_3.index t (1 : Fin 2) = win0_4.index t (2 : Fin 3)
    ∧ win0_5.index t (0 : Fin 3) = win0_4.index t (0 : Fin 3) ∧ win0_5.index t (1 : Fin 3) = 0 ∧ win0_5.index t (2 : Fin 3) = win0_4.index t (2 : Fin 3) :=
  (by decide +kernel : ∀ t : Fin grid0.N, _)

/-- Every (sequence, channel tile) pair is some grid point's. -/
theorem idx_onto : ∀ (b : Fin 8) (k : Fin 8), ∃ t : Fin cfg0.N, win0_4.index t = ![b.val, 0, k.val] :=
  (by decide +kernel : ∀ (b : Fin 8) (k : Fin 8), ∃ t : Fin grid0.N, win0_4.index t = ![b.val, 0, k.val])

/-- The arguments the results depend on, as the launch finds them. -/
abbrev argX (c : Dev nD) : SX.Idx → EReal := m ((c : Thread nD τ).loc main_arg0)
abbrev argW (c : Dev nD) : SW.Idx → EReal := m ((c : Thread nD τ).loc main_arg1)
abbrev argB (c : Dev nD) : SB.Idx → EReal := m ((c : Thread nD τ).loc main_arg2)
abbrev argG (c : Dev nD) : SC.Idx → EReal :=
  Entry.gathered (m ((c : Thread nD τ).loc main_arg3)) (m ((c : Thread nD τ).loc main_arg4))
abbrev argH (c : Dev nD) : SH.Idx → BitVec 1 := m ((c : Thread nD τ).loc main_arg5)

/-- The sequence of grid point `t`. -/
abbrev seqOf (t : Fin cfg0.N) (hb : win0_4.index t (0 : Fin 3) < 8) : Fin 8 := ⟨win0_4.index t (0 : Fin 3), hb⟩
/-- Channel `q` of grid point `t`'s tile, in the whole array. -/
abbrev chanOf (t : Fin cfg0.N) (q : Fin 512) (hk : win0_4.index t (2 : Fin 3) < 8) : Fin 4096 :=
  ⟨win0_4.index t (2 : Fin 3) * 512 + q.val, by have := q.isLt; omega⟩

section Point

variable (c : Dev nD) (t : Fin cfg0.N) (q : Fin 512)
  (hb : win0_4.index t (0 : Fin 3) < 8) (hk : win0_4.index t (2 : Fin 3) < 8)
  (e00 : win0_0.index t (0 : Fin 3) = win0_4.index t (0 : Fin 3)) (e01 : win0_0.index t (1 : Fin 3) = 0) (e02 : win0_0.index t (2 : Fin 3) = win0_4.index t (2 : Fin 3))
  (e10 : win0_1.index t (0 : Fin 3) = win0_4.index t (0 : Fin 3)) (e11 : win0_1.index t (1 : Fin 3) = 0) (e12 : win0_1.index t (2 : Fin 3) = win0_4.index t (2 : Fin 3))
  (e20 : win0_2.index t (0 : Fin 2) = 0) (e21 : win0_2.index t (1 : Fin 2) = win0_4.index t (2 : Fin 3))
  (e30 : win0_3.index t (0 : Fin 2) = 0) (e31 : win0_3.index t (1 : Fin 2) = win0_4.index t (2 : Fin 3))

include e00 e01 e02 in
/-- Row `r`, channel `q` of the point's sequence block. -/
theorem seqBlock_apply (r : Fin 2048) :
    iblk m c 0 t (ix3 (0 : Fin 1) r q) = seqRow (argX m c) (seqOf t hb) r (chanOf t q hk) := by
  show V m c main_v0 (((cfg0.win 0).blk t).view.emb (ix3 (0 : Fin 1) r q)) = _
  rw [Entry.sequences_eq]
  refine Eq.trans (congrArg _ ?_) (Entry.sequences_apply _ _ (seqOf t hb) r (chanOf t q hk))
  funext a; apply Fin.ext
  match a with
  | ⟨0, _⟩ => show win0_0.index t (0 : Fin 3) * 1 + 1 * 0 = win0_4.index t (0 : Fin 3); omega
  | ⟨1, _⟩ => show win0_0.index t (1 : Fin 3) * 2048 + 1 * r.val = r.val; omega
  | ⟨2, _⟩ => show win0_0.index t (2 : Fin 3) * 512 + 1 * q.val = win0_4.index t (2 : Fin 3) * 512 + q.val; omega

include e10 e11 e12 in
/-- Context row `p`, channel `q` of the point's context block. -/
theorem ctxBlock_apply (p : Fin 3) :
    iblk m c 1 t (ix3 (0 : Fin 1) p q) = ctxRow (argG m c) (argH m c) (seqOf t hb) p (chanOf t q hk) := by
  show V m c main_v11 (((cfg0.win 1).blk t).view.emb (ix3 (0 : Fin 1) p q)) = _
  rw [Entry.context_eq]
  refine Eq.trans (congrArg _ ?_) (Entry.context_apply _ _ _ (seqOf t hb) p (chanOf t q hk))
  funext a; apply Fin.ext
  match a with
  | ⟨0, _⟩ => show win0_1.index t (0 : Fin 3) * 1 + 1 * 0 = win0_4.index t (0 : Fin 3); omega
  | ⟨1, _⟩ => show win0_1.index t (1 : Fin 3) * 3 + 1 * p.val = p.val; omega
  | ⟨2, _⟩ => show win0_1.index t (2 : Fin 3) * 512 + 1 * q.val = win0_4.index t (2 : Fin 3) * 512 + q.val; omega

include e20 e21 in
/-- Tap `j`, channel `q` of the point's taps block. -/
theorem tapBlock_apply (j : Fin 4) :
    iblk m c 2 t (ix2 j q) = tap (argW m c) j (chanOf t q hk) := by
  show V m c main_v13 (((cfg0.win 2).blk t).view.emb (ix2 j q)) = _
  rw [Entry.taps_eq]
  refine Eq.trans (congrArg _ ?_) (Entry.taps_apply _ _ _ j (chanOf t q hk))
  funext a; apply Fin.ext
  match a with
  | ⟨0, _⟩ => show win0_2.index t (0 : Fin 2) * 4 + 1 * j.val = j.val; omega
  | ⟨1, _⟩ => show win0_2.index t (1 : Fin 2) * 512 + 1 * q.val = win0_4.index t (2 : Fin 3) * 512 + q.val; omega

include e30 e31 in
/-- Channel `q` of the point's bias block. -/
theorem biasBlock_apply :
    iblk m c 3 t (ix2 (0 : Fin 1) q) = argB m c (ix1 (chanOf t q hk)) := by
  show V m c main_v14 (((cfg0.win 3).blk t).view.emb (ix2 (0 : Fin 1) q)) = _
  rw [Entry.biasRow_eq]
  refine Eq.trans (congrArg _ ?_) (Entry.biasRow_apply _ _ (chanOf t q hk))
  funext a; apply Fin.ext
  match a with
  | ⟨0, _⟩ => show win0_3.index t (0 : Fin 2) * 1 + 1 * 0 = 0; omega
  | ⟨1, _⟩ => show win0_3.index t (1 : Fin 2) * 512 + 1 * q.val = win0_4.index t (2 : Fin 3) * 512 + q.val; omega

include e00 e01 e02 e10 e11 e12 in
/-- Row `p` of the point's stack of context rows on sequence rows is padded row `p` of its sequence. -/
theorem stackBlock_apply (p : Nat) (hp : p < 2051) :
    Block.stackRow (iblk m c 0 t) (iblk m c 1 t) p hp q
      = padRow (argX m c) (argG m c) (argH m c) (seqOf t hb) p hp (chanOf t q hk) := by
  unfold Block.stackRow padRow
  by_cases h : p < 3
  · rw [dif_pos h, dif_pos h]; exact ctxBlock_apply m c t q hb hk e10 e11 e12 ⟨p, h⟩
  · rw [dif_neg h, dif_neg h]; exact seqBlock_apply m c t q hb hk e00 e01 e02 ⟨p - 3, by omega⟩

include e00 e01 e02 e10 e11 e12 e20 e21 e30 e31 in
/-- The point's convolution at `(l, q)` is the convolution of the whole arrays at its place. -/
theorem convBlock_apply (l : Fin 2048) :
    Block.blockConv (iblk m c 0 t) (iblk m c 1 t) (iblk m c 2 t) (iblk m c 3 t) l q
      = convAt (argX m c) (argW m c) (argB m c) (argG m c) (argH m c) (seqOf t hb) l (chanOf t q hk) := by
  unfold Block.blockConv convAt
  rw [stackBlock_apply m c t q hb hk e00 e01 e02 e10 e11 e12, stackBlock_apply m c t q hb hk e00 e01 e02 e10 e11 e12,
    stackBlock_apply m c t q hb hk e00 e01 e02 e10 e11 e12, stackBlock_apply m c t q hb hk e00 e01 e02 e10 e11 e12,
    biasBlock_apply m c t q hk e30 e31, tapBlock_apply m c t q hk e20 e21, tapBlock_apply m c t q hk e20 e21,
    tapBlock_apply m c t q hk e20 e21, tapBlock_apply m c t q hk e20 e21]

end Point

/-! ## The first output: the activated convolution -/

/-- What the launch leaves in the first output's array. -/
abbrev outArr (c : Dev nD) : SO.Idx → EReal := outSeq (argX m c) (argW m c) (argB m c) (argG m c) (argH m c)

/-- What point `t` writes back to the first output is its block of the activated convolution. -/
theorem flushed4_eq (c : Dev nD) (t : Fin cfg0.N) :
    (dats m 0 c).flushed 4 t = ((cfg0.win 4).blk t).view.read (Elt Ideal) (outArr m c) := by
  show (cfg0.win 4).cut (grid0.coords t) ((dats m 0 c).after 4 t) = _
  rw [after0_4]
  obtain ⟨hb, h41, hk, e00, e01, e02, e10, e11, e12, e20, e21, e30, e31, -, -, -⟩ := idx_facts t
  refine funext fun (j : S1x2048x512.Idx) => ?_
  obtain ⟨u, l, q, rfl⟩ : ∃ (u : Fin 1) (l : Fin 2048) (q : Fin 512), j = ix3 u l q := ⟨j 0, j 1, j 2, eq_ix3 j⟩
  obtain rfl : u = 0 := Subsingleton.elim _ _
  show out0_4 (iblk m c 0 t) (iblk m c 1 t) (iblk m c 2 t) (iblk m c 3 t) (ix3 (0 : Fin 1) l q)
    = outArr m c (((cfg0.win 4).blk t).view.emb (ix3 (0 : Fin 1) l q))
  refine (Block.out_apply (iblk m c 0 t) (iblk m c 1 t) (iblk m c 2 t) (iblk m c 3 t) l q).trans ?_
  have he : ((cfg0.win 4).blk t).view.emb (ix3 (0 : Fin 1) l q) = ix3 (seqOf t hb) l (chanOf t q hk) := by
    funext a; apply Fin.ext
    match a with
    | ⟨0, _⟩ => show win0_4.index t (0 : Fin 3) * 1 + 1 * 0 = win0_4.index t (0 : Fin 3); omega
    | ⟨1, _⟩ => show win0_4.index t (1 : Fin 3) * 2048 + 1 * l.val = l.val; omega
    | ⟨2, _⟩ => show win0_4.index t (2 : Fin 3) * 512 + 1 * q.val = win0_4.index t (2 : Fin 3) * 512 + q.val; omega
  rw [he]
  exact congrArg silu (convBlock_apply m c t q hb hk e00 e01 e02 e10 e11 e12 e20 e21 e30 e31 l)

/-- An index of the first output is in point `t`'s block iff each coordinate is in the block's range on its axis. -/
theorem mem_blk4 (t : Fin cfg0.N) (i : S8x2048x4096.Idx) :
    i ∈ ((cfg0.win 4).blk t).view.set ↔ ∀ a : Fin 3, win0_4.index t a * S1x2048x512.size a ≤ (i a).val ∧ (i a).val < win0_4.index t a * S1x2048x512.size a + S1x2048x512.size a := by
  show i ∈ ((View.whole main_v15_0).slice (win0_4.rect t)).set ↔ _
  rw [View.set_slice_whole, Rect.mem_set_unit]
  exact Iff.rfl

/-- Every index of the first output is in some point's block: the point of its sequence and channel tile. -/
theorem cover4 (i : S8x2048x4096.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 4096 := (i 2).isLt
  obtain ⟨t, ht⟩ := idx_onto ⟨(i 0).val, hi0⟩ ⟨(i 2).val / 512, by omega⟩
  have q0 : win0_4.index t (0 : Fin 3) = (i 0).val := congrFun ht 0
  have q1 : win0_4.index t (1 : Fin 3) = 0 := congrFun ht 1
  have q2 : win0_4.index t (2 : Fin 3) = (i 2).val / 512 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 512 ≤ (i 2).val ∧ (i 2).val < win0_4.index t (2 : Fin 3) * 512 + 512; omega

/-- The first output's array after the launch is the activated convolution. -/
theorem final4 (c : Dev nD) : (dats m 0 c).arrAt 4 cfg0.N = outArr m c :=
  (dats m 0 c).arrAt_eq_of_cover 4 (outArr m c) (fun t _ => flushed4_eq m c t) cover4

/-! ## The second output: the last four rows of each sequence -/

/-- What the launch leaves in the second output's array. -/
abbrev stateArr (c : Dev nD) : SC.Idx → EReal := newState (argX m c)

/-- What point `t` writes back to the second output is its block of the sequences' last four rows. -/
theorem flushed5_eq (c : Dev nD) (t : Fin cfg0.N) :
    (dats m 0 c).flushed 5 t = ((cfg0.win 5).blk t).view.read (Elt Ideal) (stateArr m c) := by
  show (cfg0.win 5).cut (grid0.coords t) ((dats m 0 c).after 5 t) = _
  rw [after0_5]
  obtain ⟨hb, h41, hk, e00, e01, e02, -, -, -, -, -, -, -, e50, e51, e52⟩ := idx_facts t
  refine funext fun (j : S1x4x512.Idx) => ?_
  obtain ⟨u, k, q, rfl⟩ : ∃ (u : Fin 1) (k : Fin 4) (q : Fin 512), j = ix3 u k q := ⟨j 0, j 1, j 2, eq_ix3 j⟩
  obtain rfl : u = 0 := Subsingleton.elim _ _
  show out0_5 (iblk m c 0 t) (iblk m c 1 t) (iblk m c 2 t) (iblk m c 3 t) (ix3 (0 : Fin 1) k q)
    = stateArr m c (((cfg0.win 5).blk t).view.emb (ix3 (0 : Fin 1) k q))
  refine (Block.state_apply (iblk m c 0 t) (iblk m c 1 t) (iblk m c 2 t) (iblk m c 3 t) k q).trans ?_
  have he : ((cfg0.win 5).blk t).view.emb (ix3 (0 : Fin 1) k q) = ix3 (seqOf t hb) k (chanOf t q hk) := by
    funext a; apply Fin.ext
    match a with
    | ⟨0, _⟩ => show win0_5.index t (0 : Fin 3) * 1 + 1 * 0 = win0_4.index t (0 : Fin 3); omega
    | ⟨1, _⟩ => show win0_5.index t (1 : Fin 3) * 4 + 1 * k.val = k.val; omega
    | ⟨2, _⟩ => show win0_5.index t (2 : Fin 3) * 512 + 1 * q.val = win0_4.index t (2 : Fin 3) * 512 + q.val; omega
  rw [he]
  exact seqBlock_apply m c t q hb hk e00 e01 e02 _

/-- An index of the second output is in point `t`'s block iff each coordinate is in the block's range on its axis. -/
theorem mem_blk5 (t : Fin cfg0.N) (i : S8x4x4096.Idx) :
    i ∈ ((cfg0.win 5).blk t).view.set ↔ ∀ a : Fin 3, win0_5.index t a * S1x4x512.size a ≤ (i a).val ∧ (i a).val < win0_5.index t a * S1x4x512.size a + S1x4x512.size a := by
  show i ∈ ((View.whole main_v15_1).slice (win0_5.rect t)).set ↔ _
  rw [View.set_slice_whole, Rect.mem_set_unit]
  exact Iff.rfl

/-- Every index of the second output is in some point's block. -/
theorem cover5 (i : S8x4x4096.Idx) : ∃ t : Fin cfg0.N, (cfg0.win 5).flush t = true ∧ i ∈ ((cfg0.win 5).blk t).view.set := by
  have hi0 : (i 0).val < 8 := (i 0).isLt
  have hi1 : (i 1).val < 4 := (i 1).isLt
  have hi2 : (i 2).val < 4096 := (i 2).isLt
  obtain ⟨t, ht⟩ := idx_onto ⟨(i 0).val, hi0⟩ ⟨(i 2).val / 512, by omega⟩
  obtain ⟨-, -, -, -, -, -, -, -, -, -, -, -, -, e50, e51, e52⟩ := idx_facts t
  have q0 : win0_4.index t (0 : Fin 3) = (i 0).val := congrFun ht 0
  have q2 : win0_4.index t (2 : Fin 3) = (i 2).val / 512 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 4 ≤ (i 1).val ∧ (i 1).val < win0_5.index t (1 : Fin 3) * 4 + 4; omega
  | ⟨2, _⟩ => show win0_5.index t (2 : Fin 3) * 512 ≤ (i 2).val ∧ (i 2).val < win0_5.index t (2 : Fin 3) * 512 + 512; omega

/-- The second output's array after the launch is the sequences' last four rows. -/
theorem final5 (c : Dev nD) : (dats m 0 c).arrAt 5 cfg0.N = stateArr m c :=
  (dats m 0 c).arrAt_eq_of_cover 5 (stateArr m c) (fun t _ => flushed5_eq m c t) cover5

end Cert.KernelIdeal.Arrays

end
-- ==== Proof.KernelRun.lean ====
/-
  The kernel program's run, read: after the launch the host reshapes the first output back to the packed shape and
  scatters the second output's rows into the cached state at the row numbers. With the two outputs known as whole
  arrays, the two results are the packed activated convolution and the scatter of the sequences' last four rows.
-/
import proofs.«153150_j67276367725129_1_alg».proof.Proof.Gen.KernelIdeal.Frame
import proofs.«153150_j67276367725129_1_alg».proof.Proof.Spec
import proofs.«153150_j67276367725129_1_alg».proof.Proof.Packed
import proofs.«153150_j67276367725129_1_alg».proof.Proof.Entry
import proofs.«153150_j67276367725129_1_alg».proof.Proof.Arrays
import Idealize.ShloMosaic.Lib.Pipeline.Value
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx Cert.CausalConv Cert.KernelIdeal.Arrays
open Idealize.ShloMosaic.Pipeline (Dat)

variable (m : (ℓ : Loc nD τ sig) → Buf (Elt Ideal) ℓ) (ρ : Dev nD → PrngReg)

/-- The first output's array, as the host lines after the launch find it. -/
theorem found_out (c : Dev nD) :
    Pipeline.withArrays (cfgs 0).spec c (V0 m c) (fun w => (dats m 0 c).arrAt w (cfgs 0).N) (Proc.devRef .tc main_v15_0) = outArr m c :=
  (Pipeline.withArrays_arr spec0 launch0.win.arr_inj c _ _ 4).trans (final4 m c)

/-- The second output's array, as the host lines after the launch find it. -/
theorem found_state (c : Dev nD) :
    Pipeline.withArrays (cfgs 0).spec c (V0 m c) (fun w => (dats m 0 c).arrAt w (cfgs 0).N) (Proc.devRef .tc main_v15_1) = stateArr m c :=
  (Pipeline.withArrays_arr spec0 launch0.win.arr_inj c _ _ 5).trans (final5 m c)

/-- The cached state argument, as the host lines after the launch find it: untouched. -/
theorem found_arg3 (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans (V_main_arg3 m c)

/-- The row numbers argument, as the host lines after the launch find it: untouched. -/
theorem found_arg4 (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans (V_main_arg4 m c)

/-- The first result: the packed activated convolution. -/
theorem tail_out (c : Dev nD) :
    (Pipeline.afterTail₀ cfgs (dats m) 0 (V0 m) [hostOps1] c main_v16 : S1x16384x4096.Idx → EReal)
      = outPacked (argX m c) (argW m c) (argB m c) (argG m c) (argH m c) := by
  unfold Pipeline.afterTail₀
  show StableHlo.after hostOps1 _ (Proc.devRef .tc main_v16) = _
  after_results
  rw [found_out]
  exact packed_eq _ _ _ _ _ shapeCasts_S8x2048x4096_S1x16384x4096

/-- The second result: the sequences' last four rows scattered into the cached state at the row numbers. -/
theorem tail_state (c : Dev nD) :
    (Pipeline.afterTail₀ cfgs (dats m) 0 (V0 m) [hostOps1] c main_v23 : S8x4x4096.Idx → EReal)
      = Host.scatter scatter_S8x4x4096_S8x1_S8x4x4096_12_0_0_1 (fun _ b => b) (m ((c : Thread nD τ).loc main_arg3))
          (Entry.rowIds (m ((c : Thread nD τ).loc main_arg4))) (stateArr m c) := by
  unfold Pipeline.afterTail₀
  show StableHlo.after hostOps1 _ (Proc.devRef .tc main_v23) = _
  after_results
  rw [found_state, found_arg3, found_arg4]
  rfl

/-- Every weakly fair execution of the kernel program ends with its two results at those two arrays and its arguments unchanged. -/
theorem run : θ_run defs (onTc (τ := τ) (main (F := Ideal))) ⟨m, fun _ => 0, ρ⟩ fun r => ∀ c : Dev nD,
      r.2.mem ((c.tc : Thread nD τ).loc main_v16) = outPacked (argX m c) (argW m c) (argB m c) (argG m c) (argH m c)
      ∧ r.2.mem ((c.tc : Thread nD τ).loc main_v23)
          = Host.scatter scatter_S8x4x4096_S8x1_S8x4x4096_12_0_0_1 (fun _ b => b) (m ((c : Thread nD τ).loc main_arg3))
              (Entry.rowIds (m ((c : Thread nD τ).loc main_arg4))) (stateArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v16 (Pipeline.mem_restRefs_of main_v16 (by decide) (by decide))).trans (tail_out m c),
      ((h c).2 main_v23 (Pipeline.mem_restRefs_of main_v23 (by decide) (by decide))).trans (tail_state m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.RefValue.lean ====
/-
  The reference program, read at an index.

  The reference transposes each sequence to channels-by-rows, `[8, 4096, 2048]`, puts the three context rows in front
  along the last axis (`[8, 4096, 2051]`), and sums, from zero, the four windows of 2048 rows each multiplied by its
  tap (the tap as the left factor), then adds the bias in front and applies `a · (1 / (1 + e^(−a)))`; it transposes back
  and packs. Element `(b, d, p)` of the padded array is padded row `p` of sequence `b` at channel `d`, so the sum is the
  convolution up to the order of the additions and of the factors.
-/
import proofs.«153150_j67276367725129_1_alg».proof.Proof.Gen.ReferenceIdeal.Read
import proofs.«153150_j67276367725129_1_alg».proof.Proof.Spec
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Read Idealize.ShloMosaic Idealize.ShloMosaic.ValueIdx Cert.CausalConv

variable (x0 : (⟨S1x16384x4096, .f32⟩ : BufTy).Contents (Elt Ideal)) (x1 : (⟨S4096x1x4, .f32⟩ : BufTy).Contents (Elt Ideal))
  (x2 : (⟨S4096, .f32⟩ : BufTy).Contents (Elt Ideal)) (x3 : (⟨S8x4x4096, .f32⟩ : BufTy).Contents (Elt Ideal))
  (x4 : (⟨S8, .i32⟩ : BufTy).Contents (Elt Ideal)) (x5 : (⟨S8, .i1⟩ : BufTy).Contents (Elt Ideal))

/-- The transposed sequences at `(b, d, l)`: row `l` of sequence `b`, channel `d`. -/
theorem seq_apply (b : Fin 8) (d : Fin 4096) (l : Fin 2048) :
    val_main_v3 (F := Ideal) x0 (ix3 b d l) = seqRow x0 b l d := by
  rw [val_main_v3_apply, val_main_v2_apply, val_main_v1_apply]
  unfold seqRow
  have hb := b.isLt; have hd := d.isLt; have hl := l.isLt
  refine congrArg x0 (funext fun a => Fin.ext ?_)
  match a with
  | ⟨0, _⟩ => rfl
  | ⟨1, _⟩ =>
    show ((((b.val * 2048 + l.val) * 4096 + d.val) / 4096) * 4096 + ((b.val * 2048 + l.val) * 4096 + d.val) % 4096) / 4096 % 16384 = b.val * 2048 + l.val
    omega
  | ⟨2, _⟩ =>
    show ((((b.val * 2048 + l.val) * 4096 + d.val) / 4096) * 4096 + ((b.val * 2048 + l.val) * 4096 + d.val) % 4096) % 4096 = d.val
    omega

/-- The context rows at `(b, d, p)`. -/
theorem ctx_apply (b : Fin 8) (d : Fin 4096) (p : Fin 3) :
    val_main_v15 (F := Ideal) x3 x4 x5 (ix3 b d p) = ctxRow (val_main_v10 (F := Ideal) x3 x4) x5 b p d := by
  have e1 : val_main_call0_v0 (F := Ideal) x5 (ix3 b d p) = x5 (ix1 b) := by
    rw [val_main_call0_v0_apply, val_main_v13_apply]
    exact congrArg x5 (funext fun a => match a with | ⟨0, _⟩ => rfl)
  have e2 : val_main_v12 (F := Ideal) x3 x4 (ix3 b d p)
      = val_main_v10 (F := Ideal) x3 x4 (ix3 b (⟨p.val + 1, by have := p.isLt; omega⟩ : Fin 4) d) := by
    rw [val_main_v12_apply, val_main_v11_apply]
    refine congrArg _ (funext fun a => Fin.ext ?_)
    match a with
    | ⟨0, _⟩ => rfl
    | ⟨1, _⟩ => show 1 + p.val = p.val + 1; omega
    | ⟨2, _⟩ => rfl
  have e3 : val_main_v14 (F := Ideal) (ix3 b d p) = Ideal.ofBits .f32 0x00000000#32 := by
    rw [val_main_v14_apply, val_main_cst_apply]; rfl
  rw [val_main_v15_apply, e1, e2, e3]
  rfl

/-- The padded array at `(b, d, p)`: padded row `p` of sequence `b`, channel `d`. -/
theorem pad_apply (b : Fin 8) (d : Fin 4096) (p : Fin 2051) :
    val_main_v16 (F := Ideal) x0 x3 x4 x5 (ix3 b d p) = padRow x0 (val_main_v10 (F := Ideal) x3 x4) x5 b p.val p.isLt d := by
  unfold val_main_v16 padRow
  by_cases h : p.val < 3
  · rw [dif_pos h]
    refine (concatenate_pair_apply_left (t := S8x4096x2051) (s₁ := S8x4096x3) (s₂ := S8x4096x2048) (2 : Fin 3) _ _ _ (ix3 b d p) rfl
      (ix3 b d (⟨p.val, h⟩ : Fin 3)) (fun a => match a with | ⟨0, _⟩ => rfl | ⟨1, _⟩ => rfl | ⟨2, _⟩ => rfl)).trans ?_
    exact ctx_apply x3 x4 x5 b d ⟨p.val, h⟩
  · rw [dif_neg h]
    refine (concatenate_pair_apply_right (t := S8x4096x2051) (s₁ := S8x4096x3) (s₂ := S8x4096x2048) (2 : Fin 3) _ _ _ (ix3 b d p) rfl rfl
      (ix3 b d (⟨p.val - 3, by have := p.isLt; omega⟩ : Fin 2048))
      (fun a ha => match a, ha with | ⟨0, _⟩, _ => rfl | ⟨1, _⟩, _ => rfl | ⟨2, _⟩, ha => absurd rfl ha)
      (by show p.val - 3 + 3 = p.val; omega)).trans ?_
    exact seq_apply x0 b d ⟨p.val - 3, by have := p.isLt; omega⟩

/-- The window of the padded array starting at row 0, at `(b, d, l)`. -/
theorem window0_apply (b : Fin 8) (d : Fin 4096) (l : Fin 2048) :
    val_main_v21 (F := Ideal) x0 x3 x4 x5 (ix3 b d l)
      = padRow x0 (val_main_v10 (F := Ideal) x3 x4) x5 b (0 + l.val) (by have := l.isLt; omega) d := by
  rw [val_main_v21_apply]
  refine Eq.trans (congrArg _ (funext fun a => Fin.ext ?_)) (pad_apply x0 x3 x4 x5 b d ⟨0 + l.val, by have := l.isLt; omega⟩)
  match a with
  | ⟨0, _⟩ => rfl
  | ⟨1, _⟩ => rfl
  | ⟨2, _⟩ => show l.val = 0 + l.val; omega

/-- The window starting at row 1. -/
theorem window1_apply (b : Fin 8) (d : Fin 4096) (l : Fin 2048) :
    val_main_v29 (F := Ideal) x0 x3 x4 x5 (ix3 b d l)
      = padRow x0 (val_main_v10 (F := Ideal) x3 x4) x5 b (1 + l.val) (by have := l.isLt; omega) d := by
  rw [val_main_v29_apply]
  refine Eq.trans (congrArg _ (funext fun a => Fin.ext ?_)) (pad_apply x0 x3 x4 x5 b d ⟨1 + l.val, by have := l.isLt; omega⟩)
  match a with
  | ⟨0, _⟩ => rfl
  | ⟨1, _⟩ => rfl
  | ⟨2, _⟩ => rfl

/-- The window starting at row 2. -/
theorem window2_apply (b : Fin 8) (d : Fin 4096) (l : Fin 2048) :
    val_main_v36 (F := Ideal) x0 x3 x4 x5 (ix3 b d l)
      = padRow x0 (val_main_v10 (F := Ideal) x3 x4) x5 b (2 + l.val) (by have := l.isLt; omega) d := by
  rw [val_main_v36_apply]
  refine Eq.trans (congrArg _ (funext fun a => Fin.ext ?_)) (pad_apply x0 x3 x4 x5 b d ⟨2 + l.val, by have := l.isLt; omega⟩)
  match a with
  | ⟨0, _⟩ => rfl
  | ⟨1, _⟩ => rfl
  | ⟨2, _⟩ => rfl

/-- The window starting at row 3. -/
theorem window3_apply (b : Fin 8) (d : Fin 4096) (l : Fin 2048) :
    val_main_v43 (F := Ideal) x0 x3 x4 x5 (ix3 b d l)
      = padRow x0 (val_main_v10 (F := Ideal) x3 x4) x5 b (3 + l.val) (by have := l.isLt; omega) d := by
  rw [val_main_v43_apply]
  refine Eq.trans (congrArg _ (funext fun a => Fin.ext ?_)) (pad_apply x0 x3 x4 x5 b d ⟨3 + l.val, by have := l.isLt; omega⟩)
  match a with
  | ⟨0, _⟩ => rfl
  | ⟨1, _⟩ => rfl
  | ⟨2, _⟩ => rfl

/-- Tap 0 broadcast over sequences and rows, at `(b, d, l)`. -/
theorem tap0_apply (b : Fin 8) (d : Fin 4096) (l : Fin 2048) : val_main_v22 (F := Ideal) x1 (ix3 b d l) = tap x1 0 d := by
  rw [val_main_v22_apply, val_main_v20_apply, val_main_v19_apply, val_main_v18_apply, val_main_v0_apply]
  unfold tap
  have hd := d.isLt
  refine congrArg x1 (funext fun a => Fin.ext ?_)
  match a with
  | ⟨0, _⟩ => show (d.val / 1 * 4 + 0) / 4 = d.val; omega
  | ⟨1, _⟩ => rfl
  | ⟨2, _⟩ => show (d.val / 1 * 4 + 0) % 4 = 0; omega

/-- Tap 1. -/
theorem tap1_apply (b : Fin 8) (d : Fin 4096) (l : Fin 2048) : val_main_v30 (F := Ideal) x1 (ix3 b d l) = tap x1 1 d := by
  rw [val_main_v30_apply, val_main_v28_apply, val_main_v27_apply, val_main_v26_apply, val_main_v0_apply]
  unfold tap
  have hd := d.isLt
  refine congrArg x1 (funext fun a => Fin.ext ?_)
  match a with
  | ⟨0, _⟩ => show (d.val / 1 * 4 + (1 + 0)) / 4 = d.val; omega
  | ⟨1, _⟩ => rfl
  | ⟨2, _⟩ => show (d.val / 1 * 4 + (1 + 0)) % 4 = 1; omega

/-- Tap 2. -/
theorem tap2_apply (b : Fin 8) (d : Fin 4096) (l : Fin 2048) : val_main_v37 (F := Ideal) x1 (ix3 b d l) = tap x1 2 d := by
  rw [val_main_v37_apply, val_main_v35_apply, val_main_v34_apply, val_main_v33_apply, val_main_v0_apply]
  unfold tap
  have hd := d.isLt
  refine congrArg x1 (funext fun a => Fin.ext ?_)
  match a with
  | ⟨0, _⟩ => show (d.val / 1 * 4 + (2 + 0)) / 4 = d.val; omega
  | ⟨1, _⟩ => rfl
  | ⟨2, _⟩ => show (d.val / 1 * 4 + (2 + 0)) % 4 = 2; omega

/-- Tap 3. -/
theorem tap3_apply (b : Fin 8) (d : Fin 4096) (l : Fin 2048) : val_main_v44 (F := Ideal) x1 (ix3 b d l) = tap x1 3 d := by
  rw [val_main_v44_apply, val_main_v42_apply, val_main_v41_apply, val_main_v40_apply, val_main_v0_apply]
  unfold tap
  have hd := d.isLt
  refine congrArg x1 (funext fun a => Fin.ext ?_)
  match a with
  | ⟨0, _⟩ => show (d.val / 1 * 4 + (3 + 0)) / 4 = d.val; omega
  | ⟨1, _⟩ => rfl
  | ⟨2, _⟩ => show (d.val / 1 * 4 + (3 + 0)) % 4 = 3; omega

/-- The bias broadcast over sequences and rows, at `(b, d, l)`. -/
theorem bias_apply (b : Fin 8) (d : Fin 4096) (l : Fin 2048) : val_main_v47 (F := Ideal) x2 (ix3 b d l) = x2 (ix1 d) := by
  rw [val_main_v47_apply, val_main_v17_apply]
  exact congrArg x2 (funext fun a => match a with | ⟨0, _⟩ => rfl)

/-- The zero the taps are summed from. -/
theorem zero_apply (i : S8x4096x2048.Idx) : val_main_v24 (F := Ideal) i = 0 := by
  rw [val_main_v24_apply, val_main_cst_1_apply]
  exact Ideal.ofBits_zero_f32

/-- The one of the activation's numerator. -/
theorem one_apply (i : S8x4096x2048.Idx) : val_main_call1_v4 (F := Ideal) i = Ideal.ofBits .f32 0x3F800000#32 := by
  rw [val_main_call1_v4_apply, val_main_call1_cst_0_apply]; rfl

/-- The one of the activation's denominator. -/
theorem one_apply' (i : S8x4096x2048.Idx) : val_main_call1_v2 (F := Ideal) i = Ideal.ofBits .f32 0x3F800000#32 := by
  rw [val_main_call1_v2_apply, val_main_call1_cst_apply]; rfl

/-- The reference's sum at `(b, d, l)` is the convolution. -/
theorem conv_apply (b : Fin 8) (d : Fin 4096) (l : Fin 2048) :
    val_main_v48 (F := Ideal) x0 x1 x2 x3 x4 x5 (ix3 b d l) = convAt x0 x1 x2 (val_main_v10 (F := Ideal) x3 x4) x5 b l d := by
  show val_main_v47 (F := Ideal) x2 (ix3 b d l)
      + ((((val_main_v24 (F := Ideal) (ix3 b d l)
        + val_main_v22 (F := Ideal) x1 (ix3 b d l) * val_main_v21 (F := Ideal) x0 x3 x4 x5 (ix3 b d l))
        + val_main_v30 (F := Ideal) x1 (ix3 b d l) * val_main_v29 (F := Ideal) x0 x3 x4 x5 (ix3 b d l))
        + val_main_v37 (F := Ideal) x1 (ix3 b d l) * val_main_v36 (F := Ideal) x0 x3 x4 x5 (ix3 b d l))
        + val_main_v44 (F := Ideal) x1 (ix3 b d l) * val_main_v43 (F := Ideal) x0 x3 x4 x5 (ix3 b d l)) = _
  rw [bias_apply, zero_apply, tap0_apply, tap1_apply, tap2_apply, tap3_apply, window0_apply, window1_apply, window2_apply, window3_apply]
  exact sum_order _ _ _ _ _ _ _ _ _

/-- The reference's activated sum at `(b, d, l)`. -/
theorem act_apply (b : Fin 8) (d : Fin 4096) (l : Fin 2048) :
    val_main_v49 (F := Ideal) x0 x1 x2 x3 x4 x5 (ix3 b d l) = silu (convAt x0 x1 x2 (val_main_v10 (F := Ideal) x3 x4) x5 b l d) := by
  show val_main_v48 (F := Ideal) x0 x1 x2 x3 x4 x5 (ix3 b d l)
      * Ideal.div (val_main_call1_v4 (F := Ideal) (ix3 b d l))
          (val_main_call1_v2 (F := Ideal) (ix3 b d l) + Ideal.exp (-(val_main_v48 (F := Ideal) x0 x1 x2 x3 x4 x5 (ix3 b d l)))) = _
  rw [conv_apply, one_apply, one_apply']
  rfl

/-- The reference's first result is the packed activated convolution. -/
theorem out_eq : val_main_v60 (F := Ideal) x0 x1 x2 x3 x4 x5 = outPacked x0 x1 x2 (val_main_v10 (F := Ideal) x3 x4) x5 := by
  funext i
  obtain ⟨u, n, d, rfl⟩ : ∃ (u : Fin 1) (n : Fin 16384) (d : Fin 4096), i = ix3 u n d := ⟨i 0, i 1, i 2, eq_ix3 i⟩
  have hu : u.val = 0 := by omega
  have hn := n.isLt; have hd := d.isLt
  rw [val_main_v60_apply, val_main_v59_apply]
  refine Eq.trans (congrArg _ (funext fun a => Fin.ext ?_))
    (act_apply x0 x1 x2 x3 x4 x5 (⟨n.val / 2048, by omega⟩ : Fin 8) d (⟨n.val % 2048, Nat.mod_lt _ (by norm_num)⟩ : Fin 2048))
  match a with
  | ⟨0, _⟩ => show ((u.val * 16384 + n.val) * 4096 + d.val) / 8388608 = n.val / 2048; omega
  | ⟨1, _⟩ => show ((u.val * 16384 + n.val) * 4096 + d.val) % 4096 = d.val; omega
  | ⟨2, _⟩ => show ((u.val * 16384 + n.val) * 4096 + d.val) / 4096 % 2048 = n.val % 2048; omega

/-- The rows the reference scatters into the cached state are the sequences' last four rows. -/
theorem state_eq : val_main_v51 (F := Ideal) x0 x3 x4 x5 = newState x0 := by
  funext i
  obtain ⟨b, k, d, rfl⟩ : ∃ (b : Fin 8) (k : Fin 4) (d : Fin 4096), i = ix3 b k d := ⟨i 0, i 1, i 2, eq_ix3 i⟩
  have hk := k.isLt
  rw [val_main_v51_apply, val_main_v50_apply]
  refine Eq.trans (congrArg _ (funext fun a => Fin.ext ?_)) ((pad_apply x0 x3 x4 x5 b d ⟨2047 + k.val, by omega⟩).trans ?_)
  · match a with
    | ⟨0, _⟩ => rfl
    | ⟨1, _⟩ => rfl
    | ⟨2, _⟩ => rfl
  · rw [padRow_of_ge _ _ _ _ _ _ (by show 3 ≤ 2047 + k.val; omega)]
    exact congrArg (fun r => seqRow x0 b r d) (Fin.ext (by show 2047 + k.val - 3 = 2044 + k.val; omega))

end Cert.ReferenceIdeal.RefValue

end
-- ==== Proof.RefRun.lean ====
/-
  The reference program's run, read: its two results are the packed activated convolution and the scatter of the
  sequences' last four rows into the cached state at the row numbers.
-/
import proofs.«153150_j67276367725129_1_alg».proof.Proof.Gen.ReferenceIdeal.Run
import proofs.«153150_j67276367725129_1_alg».proof.Proof.Gen.ReferenceIdeal.Read
import proofs.«153150_j67276367725129_1_alg».proof.Proof.Spec
import proofs.«153150_j67276367725129_1_alg».proof.Proof.RefValue

noncomputable section

namespace Cert.ReferenceIdeal.RefRun

open Cert.ReferenceIdeal Cert.ReferenceIdeal.Read Idealize.ShloMosaic Idealize.ShloMosaic.TcCoe Idealize.SL.Sem Cert.CausalConv

variable (m : (ℓ : Loc nD τ sig) → Buf (Elt Ideal) ℓ) (ρ : Dev nD → PrngReg)

/-- Every weakly fair execution of the reference program ends with its two results at those two arrays and its arguments unchanged. -/
theorem run : θ_run defs (onTc (τ := τ) (main (F := Ideal))) ⟨m, fun _ => 0, ρ⟩ fun r => ∀ c : Dev nD,
      r.2.mem ((c.tc : Thread nD τ).loc main_v60)
        = outPacked (m ((c.tc : Thread nD τ).loc main_arg0)) (m ((c.tc : Thread nD τ).loc main_arg1)) (m ((c.tc : Thread nD τ).loc main_arg2))
            (val_main_v10 (F := Ideal) (m ((c.tc : Thread nD τ).loc main_arg3)) (m ((c.tc : Thread nD τ).loc main_arg4)))
            (m ((c.tc : Thread nD τ).loc main_arg5))
      ∧ r.2.mem ((c.tc : Thread nD τ).loc main_v58)
        = Host.scatter scatter_S8x4x4096_S8x1_S8x4x4096_12_0_0_1 (fun _ b => b) (m ((c.tc : Thread nD τ).loc main_arg3))
            (val_main_v57 (F := Ideal) (m ((c.tc : Thread nD τ).loc main_arg4))) (newState (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans ((val_main_v60_eq m c).trans (RefValue.out_eq _ _ _ _ _ _)),
      (h c).2.1.trans ((val_main_v58_eq (m ((c.tc : Thread nD τ).loc main_arg0)) _ _ (m ((c.tc : Thread nD τ).loc main_arg5))).trans (by
        unfold val_main_v58
        rw [RefValue.state_eq]
        rfl)),
      (h c).2.2⟩)
    (Cert.ReferenceIdeal.Value.run (F := Ideal) m ρ)

end Cert.ReferenceIdeal.RefRun

end
-- ==== Proof.lean ====
/-
  The claim: a causal depthwise convolution of four taps over eight packed sequences, with cached context rows and a
  `silu` activation, computed by a tiled kernel and by a whole-array reference, gives equal results on the extended reals.

  Proof/Spec.lean states the result as a function of the arguments: `outPacked` (the activated convolution) and
  `newState` (each sequence's last four rows, which a scatter then writes into the cached state). The kernel side
  (Proof/Block.lean one grid point, Proof/Entry.lean the arrays the grid reads, Proof/Arrays.lean the 64 blocks tiling the
  two outputs, Proof/KernelRun.lean the host lines after the launch) and the reference side (Proof/RefValue.lean,
  Proof/RefRun.lean) each end at those functions; the gathered cached rows and the scatter are the same operations of
  the same arguments on both sides and are never opened. The two sides differ by the order of a five-term sum (from the
  bias, or from zero with the bias added last), the order of each product's factors, `0 − a` against `−a`, and the
  layout (rows-by-channels against channels-by-rows): commutativity and associativity on the extended reals, no
  finiteness. The three frames are the generated ones; the idealization rewrote nothing.
-/
import proofs.«153150_j67276367725129_1_alg».proof.Defs
import proofs.«153150_j67276367725129_1_alg».proof.Proof.Gen.Kernel
import proofs.«153150_j67276367725129_1_alg».proof.Proof.Gen.Kernel.Skeleton
import proofs.«153150_j67276367725129_1_alg».proof.Proof.Gen.Kernel.Launch
import proofs.«153150_j67276367725129_1_alg».proof.Proof.Gen.Kernel.Points
import proofs.«153150_j67276367725129_1_alg».proof.Proof.Gen.Kernel.Frame
import proofs.«153150_j67276367725129_1_alg».proof.Proof.Gen.KernelIdeal
import proofs.«153150_j67276367725129_1_alg».proof.Proof.Gen.KernelIdeal.Skeleton
import proofs.«153150_j67276367725129_1_alg».proof.Proof.Gen.KernelIdeal.Launch
import proofs.«153150_j67276367725129_1_alg».proof.Proof.Gen.KernelIdeal.Points
import proofs.«153150_j67276367725129_1_alg».proof.Proof.Gen.KernelIdeal.Frame
import proofs.«153150_j67276367725129_1_alg».proof.Proof.Gen.ReferenceIdeal
import proofs.«153150_j67276367725129_1_alg».proof.Proof.Gen.Pre_finite_inputs
import proofs.«153150_j67276367725129_1_alg».proof.Proof.Gen.ReferenceIdeal.Run
import proofs.«153150_j67276367725129_1_alg».proof.Proof.Gen.ReferenceIdeal.Read
import proofs.«153150_j67276367725129_1_alg».proof.Proof.Spec
import proofs.«153150_j67276367725129_1_alg».proof.Proof.KernelRun
import proofs.«153150_j67276367725129_1_alg».proof.Proof.RefRun
import Idealize.ShloMosaic.Adequacy
import Idealize.ShloMosaic.Init

noncomputable section

namespace Cert.Proof

open Idealize.ShloMosaic Idealize.SL.Sem Cert.CausalConv

/-- Both programs gather the cached state with the same dimension numbers at the same row numbers. -/
theorem gather_agree (st : SC.Idx → EReal) (ids : (⟨1, ![8]⟩ : Shape).Idx → BitVec 32) :
    Cert.ReferenceIdeal.Read.val_main_v10 (F := Ideal) st ids = Cert.KernelIdeal.Entry.gathered st ids := rfl

/-- Both programs scatter into the cached state with the same dimension numbers at the same row numbers. -/
theorem scatter_agree (st : SC.Idx → EReal) (ids : (⟨1, ![8]⟩ : Shape).Idx → BitVec 32) (u : SC.Idx → EReal) :
    Host.scatter Cert.ReferenceIdeal.scatter_S8x4x4096_S8x1_S8x4x4096_12_0_0_1 (fun _ b => b) st
        (Cert.ReferenceIdeal.Read.val_main_v57 (F := Ideal) ids) u
      = Host.scatter Cert.KernelIdeal.scatter_S8x4x4096_S8x1_S8x4x4096_12_0_0_1 (fun _ b => b) st
        (Cert.KernelIdeal.Entry.rowIds ids) u := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefRun.run m ρ)

/-- The idealization rewrote no operation. -/
theorem preserves : Cert.preserves_Kernel_KernelIdeal := trivial

/-- From memories that agree on the arguments both idealized programs end at the same two arrays. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ⟨(h c).1.trans ?_, (h c).2.1.trans ?_, (h c).2.2⟩)
    (Cert.ReferenceIdeal.RefRun.run m' ρ')
  · rw [(hagree c).1, (hagree c).2.1, (hagree c).2.2.1, (hagree c).2.2.2.1, (hagree c).2.2.2.2.1, (hagree c).2.2.2.2.2, gather_agree]
  · rw [(hagree c).1, (hagree c).2.2.2.1, (hagree c).2.2.2.2.1]
    exact scatter_agree _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
